-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  reducesTo_S16x2048x2048_S16x2048_d2 : S16x2048x2048.ReducesTo [2] S16x2048
  reducesTo_S16x2048_S_d0_1 : S16x2048.ReducesTo [0, 1] S_

variable [Facts]

def fn_part1 {F : FTy → Type} [FloatOps F] (main_arg4 : FVec F S16x2048x64 .f32) (main_arg5 : IVec S16x2048x2048 1) (main_v13 : IVec S_ 1) (main_v16 : IVec S16x2048x64 1) : IVec S_ 1 :=
  let main_c_5 : IVec S_ 1 := constantI S_ 1 1#1
  let main_v17 : IVec S_ 1 := (fun x v => Host.reduce IntOp.andi x v reducesTo_S16x2048x64_S_d0_1_2 h_S_) main_v16 main_c_5
  let main_v18 : IVec S_ 1 := andi main_v13 main_v17
  let main_v19 : FVec F S16x2048x64 .f32 := Host.absf main_arg4
  let main_cst_6 : FVec F S_ .f32 := constant S_ .f32 0x7F800000#32
  let main_v20 : FVec F S16x2048x64 .f32 := broadcastInDim S16x2048x64 ![] bcast_S_S16x2048x64 main_cst_6
  let main_v21 : IVec S16x2048x64 1 := cmpf .olt main_v19 main_v20
  let main_c_7 : IVec S_ 1 := constantI S_ 1 1#1
  let main_v22 : IVec S_ 1 := (fun x v => Host.reduce IntOp.andi x v reducesTo_S16x2048x64_S_d0_1_2 h_S_) main_v21 main_c_7
  let main_v23 : IVec S_ 1 := andi main_v18 main_v22
  let main_v24 : IVec S16x2048x2048 1 := noti main_arg5
  let main_c_8 : IVec S_ 1 := constantI S_ 1 0#1
  let main_v25 : IVec S16x2048 1 := (fun x v => Host.reduce IntOp.ori x v reducesTo_S16x2048x2048_S16x2048_d2 h_S_) main_v24 main_c_8
  let main_c_9 : IVec S_ 1 := constantI S_ 1 1#1
  let main_v26 : IVec S_ 1 := (fun x v => Host.reduce IntOp.andi x v reducesTo_S16x2048_S_d0_1 h_S_) main_v25 main_c_9
  let main_v27 : IVec S_ 1 := andi main_v23 main_v26
  main_v27

def fn {F : FTy → Type} [FloatOps F] (main_arg0 : FVec F S16x2048x64 .f32) (main_arg1 : FVec F S16x2048x64 .f32) (main_arg2 : FVec F S16x2048x64 .f32) (main_arg3 : FVec F S16x2048x64 .f32) (main_arg4 : FVec F S16x2048x64 .f32) (main_arg5 : IVec S16x2048x2048 1) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  let main_v14 : FVec F S16x2048x64 .f32 := Host.absf main_arg3
  let main_cst_4 : FVec F S_ .f32 := constant S_ .f32 0x7F800000#32
  let main_v15 : FVec F S16x2048x64 .f32 := broadcastInDim S16x2048x64 ![] bcast_S_S16x2048x64 main_cst_4
  let main_v16 : IVec S16x2048x64 1 := cmpf .olt main_v14 main_v15
  fn_part1 (F := F) main_arg4 main_arg5 main_v13 main_v16
-- ==== Kernel.lean ====
abbrev S16x2048x64 : Shape := ⟨3, ![16, 2048, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S1x512 : Shape := ⟨2, ![1, 512]⟩
abbrev S1x512x1 : Shape := ⟨3, ![1, 512, 1]⟩

abbrev nBuf : Space → Nat
  | .hbm => 9
  | .vmem => 16
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .hbm, ⟨4, _⟩ => ⟨S16x2048x64, .f32⟩
  | .hbm, ⟨5, _⟩ => ⟨S16x2048x2048, .i1⟩
  | .hbm, ⟨6, _⟩ => ⟨S16x2048x2048, .i32⟩
  | .hbm, ⟨7, _⟩ => ⟨S16x2048x64, .f32⟩
  | .hbm, ⟨8, _⟩ => ⟨S16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x64, .f32⟩
  | .local _ .vmem, ⟨11, _⟩ => ⟨S1x512x64, .f32⟩
  | .local _ .vmem, ⟨12, _⟩ => ⟨S1x2048x64, .f32⟩
  | .local _ .vmem, ⟨13, _⟩ => ⟨S1x2048x64, .f32⟩
  | .local _ .vmem, ⟨14, _⟩ => ⟨S1x512x2048, .f32⟩
  | .local _ .vmem, ⟨15, _⟩ => ⟨S1x512x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  natLt_1_32 : 1 < 32
  inb_S1x512x64_S1x512x64_0_0_0 : ∀ a, (![0, 0, 0] : Fin 3 → Nat) a + S1x512x64.size a ≤ S1x512x64.size a
  h_S1x512x64 : 0 < S1x512x64.numel
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  inb_S1x512x2048_S1x512x2048_0_0_0 : ∀ a, (![0, 0, 0] : Fin 3 → Nat) a + S1x512x2048.size a ≤ S1x512x2048.size a
  h_S1x512x2048 : 0 < S1x512x2048.numel
  reduces_S1x512x2048_S1x512 : S1x512x2048.Reduces [2] S1x512
  shapeCasts_S1x512_S1x512x1 : S1x512.ShapeCasts S1x512x1
  broadcasts_S1x512x1_S1x512x2048 : S1x512x1.Broadcasts S1x512x2048
  broadcasts_S1x512x1_S1x512x64 : S1x512x1.Broadcasts S1x512x64
  dot_S1x512x64_S1x2048x64_S1x512x2048_2_2_1_1_0_0_wf : DotDims.WF S1x512x64 S1x2048x64 S1x512x2048 [2] [2] [1] [1] [0] [0]
  dot_S1x512x2048_S1x2048x64_S1x512x64_2_1_1_2_0_0_wf : DotDims.WF S1x512x2048 S1x2048x64 S1x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .i32 = 32 ∨ (Rect.block (s := S16x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S16x2048x64.size a
  hwx0_4 : ∀ i : grid0.Coords, EltTy.bits .f32 = 32 ∨ (Rect.block (s := S16x2048x64) S1x512x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S16x2048x64.size a
  hwx1_0 : ∀ i : grid1.Coords, EltTy.bits .f32 = 32 ∨ (Rect.block (s := S16x2048x64) S1x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S16x2048x64.size a
  hwx1_1 : ∀ i : grid1.Coords, EltTy.bits .f32 = 32 ∨ (Rect.block (s := S16x2048x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S16x2048x2048.size a
  hwx1_2 : ∀ i : grid1.Coords, EltTy.bits .f32 = 32 ∨ (Rect.block (s := S16x2048x2048) S1x512x2048.size (cc1_transform_2 i) (hinb1_2 i)).WholeWords (EltTy.packing .f32)

variable [Facts₀]

def dot_S1x512x64_S1x2048x64_S1x512x2048_2_2_1_1_0_0 : DotDims S1x512x64 S1x2048x64 S1x512x2048 where
  lhsContracting := [2]
  rhsContracting := [2]
  lhsNonContracting := [1]
  rhsNonContracting := [1]
  lhsBatch := [0]
  rhsBatch := [0]
  wf := dot_S1x512x64_S1x2048x64_S1x512x2048_2_2_1_1_0_0_wf
def dot_S1x512x2048_S1x2048x64_S1x512x64_2_1_1_2_0_0 : DotDims S1x512x2048 S1x2048x64 S1x512x64 where
  lhsContracting := [2]
  rhsContracting := [1]
  lhsNonContracting := [1]
  rhsNonContracting := [2]
  lhsBatch := [0]
  rhsBatch := [0]
  wf := dot_S1x512x2048_S1x2048x64_S1x512x64_2_1_1_2_0_0_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg3) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .hbm, ⟨4, _⟩ => ⟨S16x2048x64, .f32⟩
  | .hbm, ⟨5, _⟩ => ⟨S16x2048x2048, .i1⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048, .f32⟩
  | .hbm, ⟨19, _⟩ => ⟨S_, .f32⟩
  | .hbm, ⟨20, _⟩ => ⟨S16x2048, .f32⟩
  | .hbm, ⟨21, _⟩ => ⟨S16x2048, .f32⟩
  | .hbm, ⟨22, _⟩ => ⟨S16x2048x1, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S_, .f32⟩
  | .hbm, ⟨27, _⟩ => ⟨S16x2048, .f32⟩
  | .hbm, ⟨28, _⟩ => ⟨S16x2048x1, .f32⟩
  | .hbm, ⟨29, _⟩ => ⟨S16x2048x2048, .f32⟩
  | .hbm, ⟨30, _⟩ => ⟨S16x2048x2048, .f32⟩
  | .hbm, ⟨31, _⟩ => ⟨S16x2048x64, .f32⟩
  | .hbm, ⟨32, _⟩ => ⟨S16x2048x2048, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.PreFacts.lean ====
/-
  What the precondition says, read back. The precondition is the conjunction of `jnp.all(|a| < +inf)` for each
  float array and `jnp.all(jnp.any(~m, axis=-1))` for the boolean array `m`. From it: every entry of the first two float
  arrays is a real number, and every row of the boolean array has a column where it is 0.
-/
import proofs.«144766_j2869038154032_2_alg».proof.Pre_finite_inputs
import Idealize.ShloMosaic.PureOps.Ideal
import Idealize.ShloMosaic.PureOps.Reduce
import Idealize.ShloMosaic.Lib.ReduceAll
import Idealize.ShloMosaic.Lib.ValueIdx
import Idealize.ShloMosaic.Lib.Affine

noncomputable section

namespace Cert.PreFacts

open Idealize.ShloMosaic
open Idealize.ShloMosaic.ValueIdx

/-- A left fold by `or` over one-bit words that came out 1 started at 1 or met a 1. -/
theorem foldl_ori_eq_one {ι : Type} (f : ι → BitVec 1) :
    ∀ (l : List ι) (init : BitVec 1), l.foldl (fun r n => IntOp.ori r (f n)) init = 1#1 →
      init = 1#1 ∨ ∃ n ∈ l, f n = 1#1
  | [], _, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A reduction by `or` from the initial value 0 that is 1 at `j` had a 1 at some operand index that reduces into `j`. -/
theorem reduce_ori_eq_one {s t u : Shape} {axes : List (Fin s.rank)} (x : s.Idx → BitVec 1) (init : u.Idx → BitVec 1)
    (h : s.ReducesTo axes t) (hu : 0 < u.numel) (h0 : init (Shape.Idx.first hu) = 0#1) (j : t.Idx)
    (e : Host.reduce IntOp.ori x init h hu j = 1#1) : ∃ i : s.Idx, h.drop i = j ∧ x i = 1#1 := by
  rw [Host.reduce_eq_foldl] at e
  rcases foldl_ori_eq_one x _ _ e with h1 | ⟨i, hi, hx⟩
  · rw [h0] at h1
    exact absurd h1 (by decide)
  · rw [List.mem_filter] at hi
    exact ⟨i, of_decide_eq_true hi.2, hx⟩

/-- A one-bit word whose complement is 1 is 0. -/
theorem eq_zero_of_not_eq_one {c : BitVec 1} : ~~~c = 1#1 → c = 0#1 := by revert c; decide

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +inf` as the precondition prints it, when it is 1: `x` is a real number. -/
theorem real_of_cmp_eq_one (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  refine real_of_abs_lt_top x ?_
  by_contra hn
  simp [Ideal.cmp, hn] at h

instance : Subsingleton Cert.Pre_finite_inputs.S_.Idx := ⟨fun a b => funext fun d => d.elim0⟩

open Cert.Pre_finite_inputs in
theorem of_pre [Cert.Pre_finite_inputs.Facts]
    (a0 a1 a2 a3 a4 : FVec Ideal Cert.Pre_finite_inputs.S16x2048x64 .f32) (a5 : IVec Cert.Pre_finite_inputs.S16x2048x2048 1)
    (h : Cert.Pre_finite_inputs.fn (F := Ideal) a0 a1 a2 a3 a4 a5 = (fun _ => 1#1)) :
    (∀ i, ∃ r : ℝ, a0 i = (r : EReal)) ∧ (∀ i, ∃ r : ℝ, a1 i = (r : EReal)) ∧
    (∀ (b : Fin 16) (r : Fin 2048), ∃ j : Fin 2048, a5 (ValueIdx.ix3 b r j) = 0#1) := by
  have h0 := congrFun h ValueIdx.ix0
  dsimp only [Cert.Pre_finite_inputs.fn, Cert.Pre_finite_inputs.fn_part1, andi] at h0
  simp only [IntOp.andi_eq_one] at h0
  obtain ⟨⟨⟨⟨⟨h3, h7⟩, -⟩, -⟩, -⟩, h26⟩ := h0
  refine ⟨fun i => ?_, fun i => ?_, fun b r => ?_⟩
  · exact real_of_cmp_eq_one (a0 i) (Host.reduce_andi_all _ _ _ _ _ h3 i)
  · exact real_of_cmp_eq_one (a1 i) (Host.reduce_andi_all _ _ _ _ _ h7 i)
  · have hrow := Host.reduce_andi_all _ _ _ _ _ h26 (ix2 b r)
    obtain ⟨i, hd, hx⟩ := reduce_ori_eq_one _ _ _ _ rfl _ hrow
    obtain ⟨c0, c1, c2, rfl⟩ : ∃ (c0 : Fin 16) (c1 : Fin 2048) (c2 : Fin 2048), i = ix3 c0 c1 c2 :=
      ⟨i 0, i 1, i 2, eq_ix3 i⟩
    have e0 : c0 = b := Fin.ext (by
      have e := Shape.ReducesTo.drop_apply_val_of_eq Facts.reducesTo_S16x2048x2048_S16x2048_d2 (ix3 c0 c1 c2) 0 0
      rw [hd] at e
      exact e.symm)
    have e1 : c1 = r := Fin.ext (by
      have e := Shape.ReducesTo.drop_apply_val_of_eq Facts.reducesTo_S16x2048x2048_S16x2048_d2 (ix3 c0 c1 c2) 1 1
      rw [hd] at e
      exact e.symm)
    subst e0 e1
    exact ⟨c2, eq_zero_of_not_eq_one hx⟩

end Cert.PreFacts

end
-- ==== Proof.LibSoftmaxRow.lean ====
/-
  Row softmax on the extended reals, for any row length and any value vectors.

  A row of scores `s : Fin n → EReal` is shifted by a number `m`, exponentiated (`p k = exp (s k - m)`, with
  `exp ⊥ = 0`, `exp ⊤ = ⊤`) and normalised by the row sum `l = ∑ k, p k`. Two spellings of the normalisation occur:
  dividing every entry by `l`, and multiplying it by the reciprocal `1 / l`; and a weighted sum `∑ k, w k * v k` may be
  normalised entry by entry before the sum or once after it. On the extended reals these agree as soon as `l` is not
  zero — division by zero has its own corner — and multiplication by `l⁻¹`, a nonnegative number that is never `⊤`,
  distributes over any sum, infinite terms included. When every score is a real number and the shift is not `⊤` each
  `s k - m` is not `⊥`, so each `p k` is positive and `l` is positive: that is the only use of finiteness.
-/
import Idealize.ShloMosaic.PureOps.Ideal

namespace Cert.Lib.SoftmaxRow

open Idealize.ShloMosaic

/-- A finite nonnegative factor comes out of a finite sum of extended reals, whatever the terms. -/
theorem sum_mul_of_nonneg_of_ne_top {ι : Type*} (t : Finset ι) (a : ι → EReal) {c : EReal} (h0 : 0 ≤ c) (ht : c ≠ ⊤) :
    (∑ k ∈ t, a k) * c = ∑ k ∈ t, a k * c := by
  classical
  induction t using Finset.induction_on with
  | empty => simp
  | insert k t hk ih =>
    rw [Finset.sum_insert hk, Finset.sum_insert hk, EReal.right_distrib_of_nonneg_of_ne_top h0 ht, ih]

/-- A dot product whose left factors were each scaled by a finite nonnegative `c` is the dot product scaled by `c`. -/
theorem scaled_dot {n : Nat} (a b : Fin n → EReal) {c : EReal} (h0 : 0 ≤ c) (ht : c ≠ ⊤) :
    ∑ d, (a d * c) * b d = (∑ d, a d * b d) * c := by
  rw [sum_mul_of_nonneg_of_ne_top _ _ h0 ht]
  exact Finset.sum_congr rfl fun d _ => mul_right_comm _ _ _

theorem exp_nonneg (x : EReal) : 0 ≤ Ideal.exp x := by
  induction x using EReal.rec with
  | bot => exact le_of_eq Ideal.exp_bot.symm
  | coe r => rw [Ideal.exp_coe]; exact EReal.coe_nonneg.2 (Real.exp_pos r).le
  | top => rw [Ideal.exp_top]; exact le_top

theorem exp_pos_of_ne_bot {x : EReal} (h : x ≠ ⊥) : 0 < Ideal.exp x := by
  induction x using EReal.rec with
  | bot => exact absurd rfl h
  | coe r => rw [Ideal.exp_coe]; exact EReal.coe_pos.2 (Real.exp_pos r)
  | top => rw [Ideal.exp_top]; exact EReal.zero_lt_top

/-- A real number minus anything but `⊤` is not `⊥`. -/
theorem coe_sub_ne_bot (r : ℝ) {m : EReal} (hm : m ≠ ⊤) : (r : EReal) - m ≠ ⊥ := by
  induction m using EReal.rec with
  | bot => simp
  | coe q => rw [← EReal.coe_sub]; exact EReal.coe_ne_bot _
  | top => exact absurd rfl hm

/-- The running maximum of a row none of whose entries is `⊤`, started below `⊤`, is not `⊤`. -/
theorem fold_max_ne_top {n : Nat} {b : EReal} (hb : b ≠ ⊤) (s : Fin n → EReal) (hs : ∀ k, s k ≠ ⊤) :
    (Finset.univ : Finset (Fin n)).fold max b s ≠ ⊤ := by
  apply ne_of_lt
  rw [Finset.fold_max_lt]
  exact ⟨lt_top_iff_ne_top.2 hb, fun k _ => lt_top_iff_ne_top.2 (hs k)⟩

section Row

variable {n : Nat} (s : Fin n → EReal) (m : EReal)

/-- The row sum of the shifted exponentials is positive when the row is not empty, its scores are real and the shift
    is not `⊤`. -/
theorem rowsum_pos (hn : 0 < n) (hs : ∀ k, ∃ r : ℝ, s k = r) (hm : m ≠ ⊤) :
    0 < ∑ k, Ideal.exp (s k - m) := by
  have h0 : 0 < Ideal.exp (s ⟨0, hn⟩ - m) := by
    obtain ⟨r, hr⟩ := hs ⟨0, hn⟩
    rw [hr]
    exact exp_pos_of_ne_bot (coe_sub_ne_bot r hm)
  exact lt_of_lt_of_le h0
    (Finset.single_le_sum (f := fun k => Ideal.exp (s k - m)) (fun k _ => exp_nonneg _) (Finset.mem_univ _))

/-- An entry times the reciprocal of a nonzero row sum is the entry divided by the row sum. -/
theorem mul_one_div {l : EReal} (hl : l ≠ 0) (p : EReal) : p * Ideal.div 1 l = Ideal.div p l := by
  unfold Ideal.div
  rw [if_neg hl, if_neg hl, one_mul]

/-- A weighted sum normalised once after the sum, by the reciprocal of a positive row sum, is the sum of the
    entrywise-normalised weights times the values — for any values, infinite ones included. -/
theorem sum_mul_one_div {l : EReal} (hl : 0 < l) (p v : Fin n → EReal) :
    (∑ k, p k * v k) * Ideal.div 1 l = ∑ k, Ideal.div (p k) l * v k := by
  have hl0 : l ≠ 0 := hl.ne'
  have e1 : Ideal.div 1 l = l⁻¹ := by unfold Ideal.div; rw [if_neg hl0, one_mul]
  rw [e1, sum_mul_of_nonneg_of_ne_top _ _ (EReal.inv_nonneg_of_nonneg hl.le) (EReal.inv_lt_top l).ne]
  refine Finset.sum_congr rfl fun k _ => ?_
  unfold Ideal.div
  rw [if_neg hl0]
  exact mul_right_comm _ _ _

end Row

end Cert.Lib.SoftmaxRow
-- ==== Proof.Spec.lean ====
/-
  Masked scaled dot-product attention, index by index on the extended reals, and the cross score.

  For a query row (b, i) the score against key j is -inf where the mask is set and otherwise the dot product of the
  query row with key row j over the 64 features, times 1/8. A row of scores s is turned into weights
  exp (s j - max s); the row's result at feature d is the weighted sum of the value rows divided by the sum of the
  weights. Dividing once after the weighted sum (the kernel) and dividing every weight before it (the reference)
  agree as soon as the sum of the weights is positive, because the reciprocal of a positive number is a finite
  nonnegative factor and such a factor distributes over any sum of extended reals. The sum of the weights is
  positive when no score is +inf and at least one score is a real number: that score's weight is exp of a number
  that is not -inf. This is where an unmasked key and the finiteness of queries and keys are used.
-/
import Idealize.ShloMosaic.PureOps.Ideal
import Idealize.ShloMosaic.Lib.ValueIdx
import proofs.«144766_j2869038154032_2_alg».proof.Proof.LibSoftmaxRow

noncomputable section

namespace Cert.Attn

open Idealize.ShloMosaic Idealize.ShloMosaic.ValueIdx Cert.Lib.SoftmaxRow

/-! ## One row -/

section Row

variable {n : Nat} (s : Fin n → EReal)

/-- The largest score of the row (-inf for an empty row). -/
def rowMax : EReal := (Finset.univ : Finset (Fin n)).fold max ⊥ s

/-- The weight of key j: exp of its score less the row's largest. -/
def weight (j : Fin n) : EReal := Ideal.exp (s j - rowMax s)

/-- The sum of the row's weights. -/
def rowSum : EReal := ∑ j, weight s j

/-- The row's result for values `vals`: the weighted sum of the values over the sum of the weights. -/
def attnRow (vals : Fin n → EReal) : EReal := Ideal.div (∑ j, weight s j * vals j) (rowSum s)

theorem rowMax_ne_top (hs : ∀ j, s j ≠ ⊤) : rowMax s ≠ ⊤ := fold_max_ne_top bot_ne_top s hs

/-- With no score +inf and one score real, the sum of the weights is positive. -/
theorem rowSum_pos (hs : ∀ j, s j ≠ ⊤) (j0 : Fin n) (h0 : ∃ r : ℝ, s j0 = r) : 0 < rowSum s := by
  obtain ⟨r, hr⟩ := h0
  have hpos : 0 < weight s j0 := by
    unfold weight
    rw [hr]
    exact exp_pos_of_ne_bot (coe_sub_ne_bot r (rowMax_ne_top s hs))
  exact lt_of_lt_of_le hpos
    (Finset.single_le_sum (f := fun j => weight s j) (fun j _ => exp_nonneg _) (Finset.mem_univ j0))

/-- Dividing every weight by a positive sum before the weighted sum is dividing the weighted sum by it. -/
theorem sum_div_mul {l : EReal} (hl : 0 < l) (p vals : Fin n → EReal) :
    ∑ j, Ideal.div (p j) l * vals j = Ideal.div (∑ j, p j * vals j) l := by
  rw [← sum_mul_one_div hl p vals, mul_one_div hl.ne']

/-- The reference's spelling of a row — every weight normalised, then the weighted sum — is `attnRow`. -/
theorem sum_normalised_eq_attnRow (hs : ∀ j, s j ≠ ⊤) (j0 : Fin n) (h0 : ∃ r : ℝ, s j0 = r) (vals : Fin n → EReal) :
    ∑ j, Ideal.div (weight s j) (rowSum s) * vals j = attnRow s vals :=
  sum_div_mul (rowSum_pos s hs j0 h0) _ _

end Row

/-! ## The arrays -/

/-- Queries, keys, values and the two cross operands: [16, 2048, 64]. Scores and the mask: [16, 2048, 2048]. -/
abbrev QShape : Shape := ⟨3, ![16, 2048, 64]⟩
abbrev SShape : Shape := ⟨3, ![16, 2048, 2048]⟩

section Arrays

variable (q k v : QShape.Idx → EReal) (msk : SShape.Idx → BitVec 1)

/-- The dot product of query row (b, i) with key row (b, j). -/
def qk (b : Fin 16) (i j : Fin 2048) : EReal := ∑ d : Fin 64, q (ix3 b i d) * k (ix3 b j d)

/-- The masked, scaled score. -/
def score (b : Fin 16) (i : Fin 2048) (j : Fin 2048) : EReal :=
  if msk (ix3 b i j) = 1#1 then ⊥ else qk q k b i j * ((1 / 8 : ℝ) : EReal)

/-- The context at (b, i, d). -/
def contextAt (b : Fin 16) (i : Fin 2048) (d : Fin 64) : EReal :=
  attnRow (score q k msk b i) fun j => v (ix3 b j d)

/-- The context array. -/
def context : QShape.Idx → EReal := fun x => contextAt q k v msk (x 0) (x 1) (x 2)

/-- The cross score at (b, i, j): the dot product of row (b, i) of the first operand with row (b, j) of the second. -/
def crossAt (c1 c2 : QShape.Idx → EReal) (b : Fin 16) (i j : Fin 2048) : EReal :=
  ∑ d : Fin 64, c1 (ix3 b i d) * c2 (ix3 b j d)

/-- The cross score array. -/
def cross (c1 c2 : QShape.Idx → EReal) : SShape.Idx → EReal := fun x => crossAt c1 c2 (x 0) (x 1) (x 2)

/-- A dot product of real numbers is a real number. -/
theorem qk_real (hq : ∀ x, ∃ r : ℝ, q x = r) (hk : ∀ x, ∃ r : ℝ, k x = r) (b : Fin 16) (i j : Fin 2048) :
    ∃ r : ℝ, qk q k b i j = r := by
  choose qr hqr using hq
  choose kr hkr using hk
  refine ⟨∑ d : Fin 64, qr (ix3 b i d) * kr (ix3 b j d), ?_⟩
  unfold qk
  simp only [hqr, hkr, ← EReal.coe_mul]
  induction (Finset.univ : Finset (Fin 64)) using Finset.induction_on with
  | empty => simp
  | insert a t ha ih => rw [Finset.sum_insert ha, Finset.sum_insert ha, ih, EReal.coe_add]

/-- With real queries and keys no score is +inf. -/
theorem score_ne_top (hq : ∀ x, ∃ r : ℝ, q x = r) (hk : ∀ x, ∃ r : ℝ, k x = r) (b : Fin 16) (i j : Fin 2048) :
    score q k msk b i j ≠ ⊤ := by
  unfold score
  split
  · exact bot_ne_top
  · obtain ⟨r, hr⟩ := qk_real q k hq hk b i j
    rw [hr, ← EReal.coe_mul]
    exact EReal.coe_ne_top _

/-- With real queries and keys an unmasked score is a real number. -/
theorem score_real (hq : ∀ x, ∃ r : ℝ, q x = r) (hk : ∀ x, ∃ r : ℝ, k x = r) (b : Fin 16) (i j : Fin 2048)
    (hm : msk (ix3 b i j) = 0#1) : ∃ r : ℝ, score q k msk b i j = r := by
  obtain ⟨r, hr⟩ := qk_real q k hq hk b i j
  refine ⟨r * (1 / 8), ?_⟩
  unfold score
  rw [if_neg (by rw [hm]; decide), hr, ← EReal.coe_mul]

end Arrays

end Cert.Attn

end
-- ==== Proof.Consts.lean ====
/-
  The float constants the two programs spell, as the extended reals their bit patterns denote: the score scale
  0.125 = 1/8, the reference's 64 and 1 from which it computes 1/sqrt 64, and -inf. Since 64 = 8 * 8 the square
  root is exactly 8, so the reference's computed scale 1 / sqrt 64 is the kernel's literal 1/8.
-/
import Idealize.ShloMosaic.PureOps.Ideal

noncomputable section

namespace Cert.Attn.Consts

open Idealize.ShloMosaic

/-- The pattern of 0.125 denotes the real 1/8. -/
theorem ofBits_eighth : Ideal.ofBits .f32 0x3E000000#32 = ((1 / 8 : ℝ) : EReal) := by
  simp [Ideal.ofBits, Ideal.ieee, -EReal.coe_mul]; norm_num

/-- The pattern of 64.0 denotes the real 64. -/
theorem ofBits_64 : Ideal.ofBits .f32 0x42800000#32 = ((64 : ℝ) : EReal) := by
  simp [Ideal.ofBits, Ideal.ieee, -EReal.coe_mul]; norm_num

/-- The pattern of 1.0 denotes 1. -/
theorem ofBits_one : Ideal.ofBits .f32 0x3F800000#32 = ((1 : ℝ) : EReal) := by
  simp [Ideal.ofBits, Ideal.ieee, -EReal.coe_mul]; norm_num

/-- The pattern of -inf denotes the bottom of the extended reals. -/
theorem ofBits_neg_inf : Ideal.ofBits .f32 0xFF800000#32 = ⊥ := by
  simp [Ideal.ofBits, Ideal.ieee]

/-- The square root of 64 is 8. -/
theorem sqrt_64 : Real.sqrt 64 = 8 := by
  rw [show (64 : ℝ) = 8 ^ 2 by norm_num]
  exact Real.sqrt_sq (by norm_num)

/-- The reference's scale, 1 divided by the square root of 64, is 1/8. -/
theorem inv_sqrt_64 :
    Ideal.div (Ideal.ofBits .f32 0x3F800000#32) (Ideal.sqrt (Ideal.ofBits .f32 0x42800000#32)) = ((1 / 8 : ℝ) : EReal) := by
  rw [ofBits_one, ofBits_64, Ideal.sqrt_coe, if_neg (by norm_num), sqrt_64,
    Ideal.div_coe (by norm_num : (8 : ℝ) ≠ 0), ← EReal.coe_mul, one_mul]

/-- The scale 1/8 is nonnegative and finite: it may be moved across a sum of extended reals. -/
theorem eighth_nonneg : (0 : EReal) ≤ ((1 / 8 : ℝ) : EReal) := EReal.coe_nonneg.2 (by norm_num)
theorem eighth_ne_top : ((1 / 8 : ℝ) : EReal) ≠ ⊤ := EReal.coe_ne_top _

end Cert.Attn.Consts

end
-- ==== Proof.RefValue.lean ====
/-
  The reference, stage by stage at coordinates, is the specification.

  The reference scales the query-key dot products by 1 / sqrt 64 = 1/8, fills the masked entries with -inf, takes
  each row's maximum (joined with -inf, which changes nothing), exponentiates the shifted scores, sums them,
  divides every weight by the row's sum and contracts the normalised weights with the values. Up to the last two
  steps this is the specification's own text; the last two are the specification's weighted sum divided once,
  because the row's sum is positive: no score is +inf and an unmasked score is a real number.
-/
import proofs.«144766_j2869038154032_2_alg».proof.Proof.Gen.ReferenceIdeal.Read
import proofs.«144766_j2869038154032_2_alg».proof.Proof.Spec
import proofs.«144766_j2869038154032_2_alg».proof.Proof.Consts
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic
  Idealize.ShloMosaic.ValueIdx Cert.Attn

variable [Facts]
open Facts

variable (x0 x1 x2 : (⟨S16x2048x64, .f32⟩ : BufTy).Contents (Elt Ideal))
  (x5 : (⟨S16x2048x2048, .i1⟩ : BufTy).Contents (Elt Ideal))

/-! ## The composed index functions at coordinates -/

theorem lidx_v2 (b : Fin 16) (i j : Fin 2048) (d : Fin 64) : lidx_main_v2 (ix3 b i j) d = ix3 b i d :=
  funext fun a => Fin.ext (by match a with | ⟨0, _⟩ => rfl | ⟨1, _⟩ => rfl | ⟨2, _⟩ => rfl)
theorem ridx_v2 (b : Fin 16) (i j : Fin 2048) (d : Fin 64) : ridx_main_v2 (ix3 b i j) d = ix3 b j d :=
  funext fun a => Fin.ext (by match a with | ⟨0, _⟩ => rfl | ⟨1, _⟩ => rfl | ⟨2, _⟩ => rfl)
theorem lidx_v18 (b : Fin 16) (i j : Fin 2048) (d : Fin 64) : lidx_main_v18 (ix3 b i j) d = ix3 b i d :=
  funext fun a => Fin.ext (by match a with | ⟨0, _⟩ => rfl | ⟨1, _⟩ => rfl | ⟨2, _⟩ => rfl)
theorem ridx_v18 (b : Fin 16) (i j : Fin 2048) (d : Fin 64) : ridx_main_v18 (ix3 b i j) d = ix3 b j d :=
  funext fun a => Fin.ext (by match a with | ⟨0, _⟩ => rfl | ⟨1, _⟩ => rfl | ⟨2, _⟩ => rfl)
theorem lidx_v17 (b : Fin 16) (i : Fin 2048) (d : Fin 64) (j : Fin 2048) : lidx_main_v17 (ix3 b i d) j = ix3 b i j :=
  funext fun a => Fin.ext (by match a with | ⟨0, _⟩ => rfl | ⟨1, _⟩ => rfl | ⟨2, _⟩ => rfl)
theorem ridx_v17 (b : Fin 16) (i : Fin 2048) (d : Fin 64) (j : Fin 2048) : ridx_main_v17 (ix3 b i d) j = ix3 b j d :=
  funext fun a => Fin.ext (by match a with | ⟨0, _⟩ => rfl | ⟨1, _⟩ => rfl | ⟨2, _⟩ => rfl)
theorem idx_row10 (b : Fin 16) (i j : Fin 2048) : idx_main_v9 (idx_main_v10 (ix3 b i j)) = ix2 b i :=
  funext fun a => Fin.ext (by match a with | ⟨0, _⟩ => rfl | ⟨1, _⟩ => rfl)
theorem idx_row15 (b : Fin 16) (i j : Fin 2048) : idx_main_v14 (idx_main_v15 (ix3 b i j)) = ix2 b i :=
  funext fun a => Fin.ext (by match a with | ⟨0, _⟩ => rfl | ⟨1, _⟩ => rfl)
theorem idx_v13 (b : Fin 16) (i j : Fin 2048) : idx_main_v13 (ix2 b i) j = ix3 b i j :=
  funext fun a => Fin.ext (by match a with | ⟨0, _⟩ => rfl | ⟨1, _⟩ => rfl | ⟨2, _⟩ => rfl)

/-! ## The stages -/

/-- The broadcast scale 1 / sqrt 64 is 1/8 at every index. -/
theorem scale_apply (x : S16x2048x2048.Idx) : val_main_v3 (F := Ideal) x = ((1 / 8 : ℝ) : EReal) := by
  rw [val_main_v3_apply, val_main_v1_apply, val_main_cst_0_apply, val_main_v0_apply, val_main_cst_apply]
  simp only [Ideal.ofBits_def, Ideal.hostDivf_def, Ideal.hostUnary_sqrt_def]
  exact Consts.inv_sqrt_64

/-- The masked scaled scores are the specification's. -/
theorem score_apply (b : Fin 16) (i j : Fin 2048) :
    val_main_v5 (F := Ideal) x0 x1 x5 (ix3 b i j) = score x0 x1 x5 b i j := by
  rw [val_main_v5_apply, val_main_call0_v1_apply, val_main_call0_v0_apply, val_main_cst_1_apply, val_main_v4_apply,
    val_main_v2_apply, scale_apply]
  simp only [lidx_v2, ridx_v2, Ideal.mulf_def, Ideal.ofBits_def, Consts.ofBits_neg_inf]
  rfl

/-- A row's maximum, joined with -inf, is the specification's row maximum. -/
theorem max_apply (b : Fin 16) (i : Fin 2048) :
    val_main_v8 (F := Ideal) x0 x1 x5 (ix2 b i) = rowMax (score x0 x1 x5 b i) := by
  have hred : S16x2048x2048.Reduces [2] S16x2048 := by decide
  have hl : ∀ j : Fin 2048, hred.lift (ix2 b i) j = ix3 b i j := fun j =>
    funext fun a => Fin.ext (by match a with | ⟨0, _⟩ => rfl | ⟨1, _⟩ => rfl | ⟨2, _⟩ => rfl)
  rw [val_main_v8_apply, val_main_v7_apply, val_main_cst_3_apply]
  unfold val_main_v6
  rw [Host.reduce_eq_fold_single FloatOps.maximumf _ _ reducesTo_S16x2048x2048_S16x2048_d2 hred h_S_]
  simp only [Ideal.maximumf_def, Ideal.ofBits_def, val_main_cst_2_apply, Consts.ofBits_neg_inf, bot_le, max_eq_right]
  unfold rowMax
  refine Finset.fold_congr (fun (j : Fin 2048) _ => ?_)
  show val_main_v5 (F := Ideal) x0 x1 x5 (hred.lift (ix2 b i) j) = score x0 x1 x5 b i j
  rw [hl j, score_apply]

/-- The exponentiated shifted scores are the specification's weights. -/
theorem weight_apply (b : Fin 16) (i j : Fin 2048) :
    val_main_v12 (F := Ideal) x0 x1 x5 (ix3 b i j) = weight (score x0 x1 x5 b i) j := by
  rw [val_main_v12_apply, val_main_v11_apply, val_main_v10_apply, val_main_v9_apply, idx_row10, max_apply, score_apply]
  rfl

/-- A row's sum of weights. -/
theorem rowSum_apply (b : Fin 16) (i : Fin 2048) :
    val_main_v13 (F := Ideal) x0 x1 x5 (ix2 b i) = rowSum (score x0 x1 x5 b i) := by
  rw [val_main_v13_apply, val_main_cst_4_apply]
  simp only [Ideal.ofBits_def, Ideal.ofBits_zero_f32, zero_add]
  unfold rowSum
  refine Finset.sum_congr rfl fun j _ => ?_
  rw [idx_v13, weight_apply]

/-- The normalised weights. -/
theorem normalised_apply (b : Fin 16) (i j : Fin 2048) :
    val_main_v16 (F := Ideal) x0 x1 x5 (ix3 b i j)
      = Ideal.div (weight (score x0 x1 x5 b i) j) (rowSum (score x0 x1 x5 b i)) := by
  rw [val_main_v16_apply, val_main_v15_apply, val_main_v14_apply, idx_row15, rowSum_apply, weight_apply]
  rfl

/-! ## The results -/

/-- With real queries and keys and an unmasked key in every row, the reference's context is the specification's. -/
theorem context_eq (hq : ∀ x, ∃ r : ℝ, x0 x = r) (hk : ∀ x, ∃ r : ℝ, x1 x = r)
    (hm : ∀ (b : Fin 16) (i : Fin 2048), ∃ j : Fin 2048, x5 (ix3 b i j) = 0#1) :
    val_main_v17 (F := Ideal) x0 x1 x2 x5 = context x0 x1 x2 x5 := by
  funext x
  obtain ⟨b, i, d, rfl⟩ : ∃ (b : Fin 16) (i : Fin 2048) (d : Fin 64), x = ix3 b i d := ⟨x 0, x 1, x 2, eq_ix3 x⟩
  rw [val_main_v17_apply]
  simp only [lidx_v17, ridx_v17, normalised_apply]
  obtain ⟨j0, hj0⟩ := hm b i
  exact sum_normalised_eq_attnRow (score x0 x1 x5 b i) (fun j => score_ne_top x0 x1 x5 hq hk b i j) j0
    (score_real x0 x1 x5 hq hk b i j0 hj0) fun j => x2 (ix3 b j d)

/-- The reference's cross score is the specification's. -/
theorem cross_eq (x3 x4 : (⟨S16x2048x64, .f32⟩ : BufTy).Contents (Elt Ideal)) :
    val_main_v18 (F := Ideal) x3 x4 = cross x3 x4 := by
  funext x
  obtain ⟨b, i, j, rfl⟩ : ∃ (b : Fin 16) (i j : Fin 2048), x = ix3 b i j := ⟨x 0, x 1, x 2, eq_ix3 x⟩
  rw [val_main_v18_apply]
  simp only [lidx_v18, ridx_v18]
  rfl

end Cert.ReferenceIdeal.RefValue

end
-- ==== Proof.KernelRun.lean ====
/-
  The idealized kernel's run with its two result arrays named.

  The program is a host conversion of the mask followed by two grid regions. The first region writes the context
  array block by block and the second the cross score array; neither region writes the other's result, so after the
  run the context array holds what the first region's write-backs leave and the cross score array what the second's
  leave, and the six argument arrays are as launched.
-/
import proofs.«144766_j2869038154032_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The context array after the run: what the first region's write-backs leave (the second region does not touch it). -/
theorem W3_main_v1 (c : Dev nD) : W3 m ρ c (Proc.devRef .tc main_v1) = (dat0 (V1 m ρ) c).arrAt 4 cfg0.N :=
  (W3_of_ne m ρ c main_v1 (by decide)).trans (W2_arr m ρ c 4)

/-- The cross score array after the run: what the second region's write-backs leave. -/
theorem W3_main_v2 (c : Dev nD) : W3 m ρ c (Proc.devRef .tc main_v2) = (dat1 (V2 m ρ) c).arrAt 2 cfg1.N :=
  W3_arr m ρ c 2

set_option backward.isDefEq.respectTransparency.types false in
/-- Every weakly fair execution terminates, faultless, with the two results at the regions' final arrays and the
    arguments as launched. -/
theorem run : θ_run defs (onTc (τ := τ) (main (F := F))) ⟨m, fun _ => 0, ρ⟩ (fun r => ∀ c : Dev nD,
      r.2.mem ((c.tc : Thread nD τ).loc main_v1) = (dat0 (V1 m ρ) c).arrAt 4 cfg0.N
      ∧ r.2.mem ((c.tc : Thread nD τ).loc main_v2) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v1 (by decide))).trans (W3_main_v1 m ρ c),
       (h c _ (mem_uc main_v2 (by decide))).trans (W3_main_v2 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Results

end
-- ==== Proof.Blocks.lean ====
/-
  Where the blocks of the two grids sit in their arrays.

  Both grids have 16 x 4 points (b, t): batch b and a tile t of 512 query rows. In the attention region the query
  block, the mask block and the output block are rows 512 t .. 512 t + 511 of batch b, and the key and value blocks
  are all 2048 rows of batch b. In the cross-score region the first operand's block and the output block are rows
  512 t .. 512 t + 511 of batch b and the second operand's block is all rows of batch b. An element (0, i, x) of a
  tile block is element (b, 512 t + i, x) of its array, an element (0, j, x) of a whole-batch block is element
  (b, j, x); and every index (b, r, x) of an output array lies in the block of the point (b, r / 512).
-/
import proofs.«144766_j2869038154032_2_alg».proof.Proof.Gen.KernelIdeal.Frame
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

theorem hz3 : (![0, 0, 0] : Fin 3 → Nat) = fun _ => 0 := funext fun a => by fin_cases a <;> rfl

/-! ## The attention region -/

/-- The index maps over the grid: query, mask and output blocks move together; key and value blocks follow the batch
    only; the batch index is below 16 and the tile index below 4. -/
theorem idx_facts0 : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (2 : Fin 3) = 0 ∧ win0_4.index t (0 : Fin 3) ≤ 15 ∧ win0_4.index t (1 : Fin 3) ≤ 3 :=
  (by decide +kernel : ∀ t : Fin grid0.N, _)

/-- Every (batch, tile) pair is some point's. -/
theorem idx_onto0 : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

section Region0
variable (V : (c : Dev nD) → (b : Ref sig .tc) → Buf (Elt F) ((c : Thread nD τ).loc b))

/-- The query block at (0, i, d) is the query array at (b, 512 t + i, d). -/
theorem read0_q (c : Dev nD) (t : Fin cfg0.N) (i : Fin 512) (d : Fin 64) (k : S16x2048x64.Idx)
    (h0 : (k 0).val = win0_4.index t (0 : Fin 3)) (h1 : (k 1).val = win0_4.index t (1 : Fin 3) * 512 + i.val)
    (h2 : (k 2).val = d.val) :
    (iblk0 V c 0 t : Vec F S1x512x64 .f32) (ix3 (0 : Fin 1) i d) = (V c main_arg0 : S16x2048x64.Idx → Elt F .f32) k := by
  obtain ⟨e00, e01, e02, -⟩ := idx_facts0 t
  unfold iblk0
  rw [View.read_apply]
  show V c main_arg0 _ = V c main_arg0 _
  congr 1
  funext a
  apply Fin.ext
  match a with
  | ⟨0, _⟩ => show win0_0.index t (0 : Fin 3) * 1 + 1 * 0 = (k 0).val; omega
  | ⟨1, _⟩ => show win0_0.index t (1 : Fin 3) * 512 + 1 * i.val = (k 1).val; omega
  | ⟨2, _⟩ => show win0_0.index t (2 : Fin 3) * 64 + 1 * d.val = (k 2).val; omega

/-- The key block at (0, j, d) is the key array at (b, j, d). -/
theorem read0_k (c : Dev nD) (t : Fin cfg0.N) (j : Fin 2048) (d : Fin 64) (k : S16x2048x64.Idx)
    (h0 : (k 0).val = win0_4.index t (0 : Fin 3)) (h1 : (k 1).val = j.val) (h2 : (k 2).val = d.val) :
    (iblk0 V c 1 t : Vec F S1x2048x64 .f32) (ix3 (0 : Fin 1) j d) = (V c main_arg1 : S16x2048x64.Idx → Elt F .f32) k := by
  obtain ⟨-, -, -, e10, e11, e12, -⟩ := idx_facts0 t
  unfold iblk0
  rw [View.read_apply]
  show V c main_arg1 _ = V c main_arg1 _
  congr 1
  funext a
  apply Fin.ext
  match a with
  | ⟨0, _⟩ => show win0_1.index t (0 : Fin 3) * 1 + 1 * 0 = (k 0).val; omega
  | ⟨1, _⟩ => show win0_1.index t (1 : Fin 3) * 2048 + 1 * j.val = (k 1).val; omega
  | ⟨2, _⟩ => show win0_1.index t (2 : Fin 3) * 64 + 1 * d.val = (k 2).val; omega

/-- The value block at (0, j, d) is the value array at (b, j, d). -/
theorem read0_v (c : Dev nD) (t : Fin cfg0.N) (j : Fin 2048) (d : Fin 64) (k : S16x2048x64.Idx)
    (h0 : (k 0).val = win0_4.index t (0 : Fin 3)) (h1 : (k 1).val = j.val) (h2 : (k 2).val = d.val) :
    (iblk0 V c 2 t : Vec F S1x2048x64 .f32) (ix3 (0 : Fin 1) j d) = (V c main_arg2 : S16x2048x64.Idx → Elt F .f32) k := by
  obtain ⟨-, -, -, -, -, -, e20, e21, e22, -⟩ := idx_facts0 t
  unfold iblk0
  rw [View.read_apply]
  show V c main_arg2 _ = V c main_arg2 _
  congr 1
  funext a
  apply Fin.ext
  match a with
  | ⟨0, _⟩ => show win0_2.index t (0 : Fin 3) * 1 + 1 * 0 = (k 0).val; omega
  | ⟨1, _⟩ => show win0_2.index t (1 : Fin 3) * 2048 + 1 * j.val = (k 1).val; omega
  | ⟨2, _⟩ => show win0_2.index t (2 : Fin 3) * 64 + 1 * d.val = (k 2).val; omega

/-- The mask block at (0, i, j) is the converted mask array at (b, 512 t + i, j). -/
theorem read0_m (c : Dev nD) (t : Fin cfg0.N) (i : Fin 512) (j : Fin 2048) (k : S16x2048x2048.Idx)
    (h0 : (k 0).val = win0_4.index t (0 : Fin 3)) (h1 : (k 1).val = win0_4.index t (1 : Fin 3) * 512 + i.val)
    (h2 : (k 2).val = j.val) :
    (iblk0 V c 3 t : Vec F S1x512x2048 .i32) (ix3 (0 : Fin 1) i j) = (V c main_v0 : S16x2048x2048.Idx → Elt F .i32) k := by
  obtain ⟨-, -, -, -, -, -, -, -, -, e30, e31, e32, -⟩ := idx_facts0 t
  unfold iblk0
  rw [View.read_apply]
  show V c main_v0 _ = V c main_v0 _
  congr 1
  funext a
  apply Fin.ext
  match a with
  | ⟨0, _⟩ => show win0_3.index t (0 : Fin 3) * 1 + 1 * 0 = (k 0).val; omega
  | ⟨1, _⟩ => show win0_3.index t (1 : Fin 3) * 512 + 1 * i.val = (k 1).val; omega
  | ⟨2, _⟩ => show win0_3.index t (2 : Fin 3) * 2048 + 1 * j.val = (k 2).val; omega

end Region0

/-- An index of the context array is in point t's block iff each coordinate is in the block's range on its axis. -/
theorem mem_blk0 (t : Fin cfg0.N) (x : S16x2048x64.Idx) :
    x ∈ ((cfg0.win 4).blk t).view.set ↔ ∀ a : Fin 3, win0_4.index t a * S1x512x64.size a ≤ (x a).val ∧ (x a).val < win0_4.index t a * S1x512x64.size a + S1x512x64.size a := by
  show x ∈ ((View.whole main_v1).slice (win0_4.rect t)).set ↔ _
  rw [View.set_slice_whole, Rect.mem_set_unit]
  exact Iff.rfl

/-- Every index of the context array is in the block of some point that writes back. -/
theorem cover0 (x : S16x2048x64.Idx) :
    ∃ t : Fin cfg0.N, (cfg0.win 4).flush t = true ∧ x ∈ ((cfg0.win 4).blk t).view.set := by
  have hx0 : (x 0).val < 16 := (x 0).isLt
  have hx1 : (x 1).val < 2048 := (x 1).isLt
  have hx2 : (x 2).val < 64 := (x 2).isLt
  obtain ⟨t, ht⟩ := idx_onto0 ⟨(x 0).val, hx0⟩ ⟨(x 1).val / 512, by omega⟩
  have q0 : win0_4.index t (0 : Fin 3) = (x 0).val := congrFun ht 0
  have q1 : win0_4.index t (1 : Fin 3) = (x 1).val / 512 := congrFun ht 1
  have q2 : win0_4.index t (2 : Fin 3) = 0 := congrFun ht 2
  refine ⟨t, flush0_4 t, ?_⟩
  rw [mem_blk0]
  intro a
  match a with
  | ⟨0, _⟩ => show win0_4.index t (0 : Fin 3) * 1 ≤ (x 0).val ∧ (x 0).val < win0_4.index t (0 : Fin 3) * 1 + 1; omega
  | ⟨1, _⟩ => show win0_4.index t (1 : Fin 3) * 512 ≤ (x 1).val ∧ (x 1).val < win0_4.index t (1 : Fin 3) * 512 + 512; omega
  | ⟨2, _⟩ => show win0_4.index t (2 : Fin 3) * 64 ≤ (x 2).val ∧ (x 2).val < win0_4.index t (2 : Fin 3) * 64 + 64; omega

/-- Element (0, i, d) of point t's output block is element (b, 512 t + i, d) of the context array. -/
theorem emb0 (t : Fin cfg0.N) (i : Fin 512) (d : Fin 64) (k : S16x2048x64.Idx)
    (h0 : (k 0).val = win0_4.index t (0 : Fin 3)) (h1 : (k 1).val = win0_4.index t (1 : Fin 3) * 512 + i.val)
    (h2 : (k 2).val = d.val) :
    ((cfg0.win 4).blk t).view.emb (ix3 (0 : Fin 1) i d) = k := by
  obtain ⟨-, -, -, -, -, -, -, -, -, -, -, -, e42, -⟩ := idx_facts0 t
  funext a
  apply Fin.ext
  match a with
  | ⟨0, _⟩ => show win0_4.index t (0 : Fin 3) * 1 + 1 * 0 = (k 0).val; omega
  | ⟨1, _⟩ => show win0_4.index t (1 : Fin 3) * 512 + 1 * i.val = (k 1).val; omega
  | ⟨2, _⟩ => show win0_4.index t (2 : Fin 3) * 64 + 1 * d.val = (k 2).val; omega

/-! ## The cross-score region -/

theorem idx_facts1 : ∀ t : Fin cfg1.N,
    win1_0.index t (0 : Fin 3) = win1_2.index t (0 : Fin 3) ∧ win1_0.index t (1 : Fin 3) = win1_2.index t (1 : Fin 3)
    ∧ win1_0.index t (2 : Fin 3) = 0
    ∧ win1_1.index t (0 : Fin 3) = win1_2.index t (0 : Fin 3) ∧ win1_1.index t (1 : Fin 3) = 0 ∧ win1_1.index t (2 : Fin 3) = 0
    ∧ win1_2.index t (2 : Fin 3) = 0 ∧ win1_2.index t (0 : Fin 3) ≤ 15 ∧ win1_2.index t (1 : Fin 3) ≤ 3 :=
  (by decide +kernel : ∀ t : Fin grid1.N, _)

theorem idx_onto1 : ∀ (q0 : Fin 16) (q1 : Fin 4), ∃ t : Fin cfg1.N, win1_2.index t = ![q0.val, q1.val, 0] :=
  (by decide +kernel : ∀ (q0 : Fin 16) (q1 : Fin 4), ∃ t : Fin grid1.N, win1_2.index t = ![q0.val, q1.val, 0])

section Region1
variable (V : (c : Dev nD) → (b : Ref sig .tc) → Buf (Elt F) ((c : Thread nD τ).loc b))

/-- The first operand's block at (0, i, d) is the array at (b, 512 t + i, d). -/
theorem read1_a (c : Dev nD) (t : Fin cfg1.N) (i : Fin 512) (d : Fin 64) (k : S16x2048x64.Idx)
    (h0 : (k 0).val = win1_2.index t (0 : Fin 3)) (h1 : (k 1).val = win1_2.index t (1 : Fin 3) * 512 + i.val)
    (h2 : (k 2).val = d.val) :
    (iblk1 V c 0 t : Vec F S1x512x64 .f32) (ix3 (0 : Fin 1) i d) = (V c main_arg3 : S16x2048x64.Idx → Elt F .f32) k := by
  obtain ⟨e00, e01, e02, -⟩ := idx_facts1 t
  unfold iblk1
  rw [View.read_apply]
  show V c main_arg3 _ = V c main_arg3 _
  congr 1
  funext a
  apply Fin.ext
  match a with
  | ⟨0, _⟩ => show win1_0.index t (0 : Fin 3) * 1 + 1 * 0 = (k 0).val; omega
  | ⟨1, _⟩ => show win1_0.index t (1 : Fin 3) * 512 + 1 * i.val = (k 1).val; omega
  | ⟨2, _⟩ => show win1_0.index t (2 : Fin 3) * 64 + 1 * d.val = (k 2).val; omega

/-- The second operand's block at (0, j, d) is the array at (b, j, d). -/
theorem read1_b (c : Dev nD) (t : Fin cfg1.N) (j : Fin 2048) (d : Fin 64) (k : S16x2048x64.Idx)
    (h0 : (k 0).val = win1_2.index t (0 : Fin 3)) (h1 : (k 1).val = j.val) (h2 : (k 2).val = d.val) :
    (iblk1 V c 1 t : Vec F S1x2048x64 .f32) (ix3 (0 : Fin 1) j d) = (V c main_arg4 : S16x2048x64.Idx → Elt F .f32) k := by
  obtain ⟨-, -, -, e10, e11, e12, -⟩ := idx_facts1 t
  unfold iblk1
  rw [View.read_apply]
  show V c main_arg4 _ = V c main_arg4 _
  congr 1
  funext a
  apply Fin.ext
  match a with
  | ⟨0, _⟩ => show win1_1.index t (0 : Fin 3) * 1 + 1 * 0 = (k 0).val; omega
  | ⟨1, _⟩ => show win1_1.index t (1 : Fin 3) * 2048 + 1 * j.val = (k 1).val; omega
  | ⟨2, _⟩ => show win1_1.index t (2 : Fin 3) * 64 + 1 * d.val = (k 2).val; omega

end Region1

theorem mem_blk1 (t : Fin cfg1.N) (x : S16x2048x2048.Idx) :
    x ∈ ((cfg1.win 2).blk t).view.set ↔ ∀ a : Fin 3, win1_2.index t a * S1x512x2048.size a ≤ (x a).val ∧ (x a).val < win1_2.index t a * S1x512x2048.size a + S1x512x2048.size a := by
  show x ∈ ((View.whole main_v2).slice (win1_2.rect t)).set ↔ _
  rw [View.set_slice_whole, Rect.mem_set_unit]
  exact Iff.rfl

theorem cover1 (x : S16x2048x2048.Idx) :
    ∃ t : Fin cfg1.N, (cfg1.win 2).flush t = true ∧ x ∈ ((cfg1.win 2).blk t).view.set := by
  have hx0 : (x 0).val < 16 := (x 0).isLt
  have hx1 : (x 1).val < 2048 := (x 1).isLt
  have hx2 : (x 2).val < 2048 := (x 2).isLt
  obtain ⟨t, ht⟩ := idx_onto1 ⟨(x 0).val, hx0⟩ ⟨(x 1).val / 512, by omega⟩
  have q0 : win1_2.index t (0 : Fin 3) = (x 0).val := congrFun ht 0
  have q1 : win1_2.index t (1 : Fin 3) = (x 1).val / 512 := congrFun ht 1
  have q2 : win1_2.index t (2 : Fin 3) = 0 := congrFun ht 2
  refine ⟨t, flush1_2 t, ?_⟩
  rw [mem_blk1]
  intro a
  match a with
  | ⟨0, _⟩ => show win1_2.index t (0 : Fin 3) * 1 ≤ (x 0).val ∧ (x 0).val < win1_2.index t (0 : Fin 3) * 1 + 1; omega
  | ⟨1, _⟩ => show win1_2.index t (1 : Fin 3) * 512 ≤ (x 1).val ∧ (x 1).val < win1_2.index t (1 : Fin 3) * 512 + 512; omega
  | ⟨2, _⟩ => show win1_2.index t (2 : Fin 3) * 2048 ≤ (x 2).val ∧ (x 2).val < win1_2.index t (2 : Fin 3) * 2048 + 2048; omega

theorem emb1 (t : Fin cfg1.N) (i : Fin 512) (j : Fin 2048) (k : S16x2048x2048.Idx)
    (h0 : (k 0).val = win1_2.index t (0 : Fin 3)) (h1 : (k 1).val = win1_2.index t (1 : Fin 3) * 512 + i.val)
    (h2 : (k 2).val = j.val) :
    ((cfg1.win 2).blk t).view.emb (ix3 (0 : Fin 1) i j) = k := by
  obtain ⟨-, -, -, -, -, -, e22, -⟩ := idx_facts1 t
  funext a
  apply Fin.ext
  match a with
  | ⟨0, _⟩ => show win1_2.index t (0 : Fin 3) * 1 + 1 * 0 = (k 0).val; omega
  | ⟨1, _⟩ => show win1_2.index t (1 : Fin 3) * 512 + 1 * i.val = (k 1).val; omega
  | ⟨2, _⟩ => show win1_2.index t (2 : Fin 3) * 2048 + 1 * j.val = (k 2).val; omega

end Cert.KernelIdeal.Blocks

end
-- ==== Proof.KernelOps.lean ====
/-
  The attention block's operations that are not pointwise, each read at explicit coordinates at the ideal values:
  the two matrix products as sums over the contracted coordinate, the row maximum and the row sum as a fold and a
  sum over the key coordinate, the added trailing unit axis, and the two broadcasts along it.
-/
import proofs.«144766_j2869038154032_2_alg».proof.KernelIdeal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Ops

open Idealize.ShloMosaic Idealize.ShloMosaic.ValueIdx Cert.KernelIdeal

variable [Facts]
open Facts₀ Facts

variable {φ₁ φ₂ : FTy}

/-! ## The trailing unit axis and the broadcasts along it -/

/-- A `[1, 512]` array cast to `[1, 512, 1]` reads, at `(0, i, 0)`, the operand at `(0, i)`: same row-major position. -/
theorem keepdims_apply {α : Type} (v : S1x512.Idx → α) (i : Fin 512) :
    shapeCast S1x512x1 v shapeCasts_S1x512_S1x512x1 (ix3 (0 : Fin 1) i (0 : Fin 1)) = v (ix2 (0 : Fin 1) i) :=
  shapeCast_apply v shapeCasts_S1x512_S1x512x1 _ _ (by
    rw [Shape.rowMajor_val_two, Shape.rowMajor_val_three]
    show 0 * 512 + i.val = (0 * 512 + i.val) * 1 + 0
    omega)

/-- A `[1, 512, 1]` array broadcast to `[1, 512, 2048]` reads, at `(0, i, j)`, the operand at `(0, i, 0)`. -/
theorem bcast_keys_apply {α : Type} (v : S1x512x1.Idx → α) (i : Fin 512) (j : Fin 2048) :
    broadcastTo S1x512x2048 v broadcasts_S1x512x1_S1x512x2048 (ix3 (0 : Fin 1) i j) = v (ix3 (0 : Fin 1) i (0 : Fin 1)) := by
  refine broadcastTo_apply v broadcasts_S1x512x1_S1x512x2048 (ix3 (0 : Fin 1) i j) (ix3 (0 : Fin 1) i (0 : Fin 1)) fun ax => ?_
  match ax with
  | ⟨0, _⟩ => rfl
  | ⟨1, _⟩ => rfl
  | ⟨2, _⟩ => rfl

/-- A `[1, 512, 1]` array broadcast to `[1, 512, 64]` reads, at `(0, i, d)`, the operand at `(0, i, 0)`. -/
theorem bcast_feat_apply {α : Type} (v : S1x512x1.Idx → α) (i : Fin 512) (d : Fin 64) :
    broadcastTo S1x512x64 v broadcasts_S1x512x1_S1x512x64 (ix3 (0 : Fin 1) i d) = v (ix3 (0 : Fin 1) i (0 : Fin 1)) := by
  refine broadcastTo_apply v broadcasts_S1x512x1_S1x512x64 (ix3 (0 : Fin 1) i d) (ix3 (0 : Fin 1) i (0 : Fin 1)) fun ax => ?_
  match ax with
  | ⟨0, _⟩ => rfl
  | ⟨1, _⟩ => rfl
  | ⟨2, _⟩ => rfl

/-! ## The row maximum and the row sum -/

/-- The accumulator pattern of the row maximum denotes `-∞`. -/
theorem ofBits_neg_inf : Ideal.ofBits .f32 0xFF800000#32 = ⊥ := by simp [Ideal.ofBits, Ideal.ieee]

/-- Row `i` with the key coordinate `j` inserted is the index `(0, i, j)`. -/
theorem lift_row (i : Fin 512) (j : Fin 2048) :
    reduces_S1x512x2048_S1x512.lift (ix2 (0 : Fin 1) i) j = ix3 (0 : Fin 1) i j := by
  funext a
  apply Fin.ext
  match a with
  | ⟨0, _⟩ => rfl
  | ⟨1, _⟩ => rfl
  | ⟨2, _⟩ => rfl

/-- The maximum over the keys, at row `i`: the fold of `max` from `-∞` over the key coordinate. -/
theorem rowmax_apply (src : FVec Ideal S1x512x2048 .f32) (i : Fin 512) :
    multiReduction .maximumf [2] S1x512 src 0xFF800000#32 reduces_S1x512x2048_S1x512 (.inl rfl) rfl (ix2 (0 : Fin 1) i)
      = (Finset.univ : Finset (Fin 2048)).fold max ⊥ (fun j => src (ix3 (0 : Fin 1) i j)) := by
  refine (Ideal.multiReduction_maximumf_single src 0xFF800000#32 reduces_S1x512x2048_S1x512 (.inl rfl) rfl
    (ix2 (0 : Fin 1) i)).trans ?_
  show (Finset.univ : Finset (Fin 2048)).fold max (Ideal.ofBits .f32 0xFF800000#32)
      (fun j => src (reduces_S1x512x2048_S1x512.lift (ix2 (0 : Fin 1) i) j)) = _
  rw [ofBits_neg_inf]
  exact congrArg (fun f => (Finset.univ : Finset (Fin 2048)).fold max ⊥ f) (funext fun j => congrArg src (lift_row i j))

/-- The sum over the keys, at row `i`. -/
theorem rowsum_apply (src : FVec Ideal S1x512x2048 .f32) (i : Fin 512) :
    multiReduction .add [2] S1x512 src 0x00000000#32 reduces_S1x512x2048_S1x512 (.inl rfl) rfl (ix2 (0 : Fin 1) i)
      = ∑ j : Fin 2048, src (ix3 (0 : Fin 1) i j) := by
  refine (Ideal.multiReduction_add_single src 0x00000000#32 reduces_S1x512x2048_S1x512 (.inl rfl) rfl
    (ix2 (0 : Fin 1) i)).trans ?_
  show ∑ j : Fin 2048, src (reduces_S1x512x2048_S1x512.lift (ix2 (0 : Fin 1) i) j) = _
  exact Finset.sum_congr rfl fun j _ => congrArg src (lift_row i j)

/-! ## The two matrix products -/

/-! The operand indices of the two contractions, one coordinate at a time. -/
theorem lhs_qk_0 (i : S1x512x2048.Idx) (q : dot_S1x512x64_S1x2048x64_S1x512x2048_2_2_1_1_0_0.contr.Idx) :
    (dot_S1x512x64_S1x2048x64_S1x512x2048_2_2_1_1_0_0.lhsIdx i q 0).val = (i 0).val := by
  unfold DotDims.lhsIdx
  rw [dif_pos (show (0 : Fin S1x512x64.rank) ∈ dot_S1x512x64_S1x2048x64_S1x512x2048_2_2_1_1_0_0.lhsBatch by
    show (0 : Fin S1x512x64.rank) ∈ ([0] : List (Fin S1x512x64.rank)); decide)]
  rfl
theorem lhs_qk_1 (i : S1x512x2048.Idx) (q : dot_S1x512x64_S1x2048x64_S1x512x2048_2_2_1_1_0_0.contr.Idx) :
    (dot_S1x512x64_S1x2048x64_S1x512x2048_2_2_1_1_0_0.lhsIdx i q 1).val = (i 1).val := by
  unfold DotDims.lhsIdx
  rw [dif_neg (show ¬(1 : Fin S1x512x64.rank) ∈ dot_S1x512x64_S1x2048x64_S1x512x2048_2_2_1_1_0_0.lhsBatch by
    show ¬(1 : Fin S1x512x64.rank) ∈ ([0] : List (Fin S1x512x64.rank)); decide),
    dif_pos (show (1 : Fin S1x512x64.rank) ∈ dot_S1x512x64_S1x2048x64_S1x512x2048_2_2_1_1_0_0.lhsNonContracting by
    show (1 : Fin S1x512x64.rank) ∈ ([1] : List (Fin S1x512x64.rank)); decide)]
  rfl
theorem lhs_qk_2 (i : S1x512x2048.Idx) (q : dot_S1x512x64_S1x2048x64_S1x512x2048_2_2_1_1_0_0.contr.Idx) :
    (dot_S1x512x64_S1x2048x64_S1x512x2048_2_2_1_1_0_0.lhsIdx i q 2).val = (q ⟨0, by show 0 < 1; decide⟩).val :=
  dot_S1x512x64_S1x2048x64_S1x512x2048_2_2_1_1_0_0.lhsIdx_val_of_single rfl i q
theorem rhs_qk_0 (i : S1x512x2048.Idx) (q : dot_S1x512x64_S1x2048x64_S1x512x2048_2_2_1_1_0_0.contr.Idx) :
    (dot_S1x512x64_S1x2048x64_S1x512x2048_2_2_1_1_0_0.rhsIdx i q 0).val = (i 0).val := by
  unfold DotDims.rhsIdx
  rw [dif_pos (show (0 : Fin S1x2048x64.rank) ∈ dot_S1x512x64_S1x2048x64_S1x512x2048_2_2_1_1_0_0.rhsBatch by
    show (0 : Fin S1x2048x64.rank) ∈ ([0] : List (Fin S1x2048x64.rank)); decide)]
  rfl
theorem rhs_qk_1 (i : S1x512x2048.Idx) (q : dot_S1x512x64_S1x2048x64_S1x512x2048_2_2_1_1_0_0.contr.Idx) :
    (dot_S1x512x64_S1x2048x64_S1x512x2048_2_2_1_1_0_0.rhsIdx i q 1).val = (i 2).val := by
  unfold DotDims.rhsIdx
  rw [dif_neg (show ¬(1 : Fin S1x2048x64.rank) ∈ dot_S1x512x64_S1x2048x64_S1x512x2048_2_2_1_1_0_0.rhsBatch by
    show ¬(1 : Fin S1x2048x64.rank) ∈ ([0] : List (Fin S1x2048x64.rank)); decide),
    dif_pos (show (1 : Fin S1x2048x64.rank) ∈ dot_S1x512x64_S1x2048x64_S1x512x2048_2_2_1_1_0_0.rhsNonContracting by
    show (1 : Fin S1x2048x64.rank) ∈ ([1] : List (Fin S1x2048x64.rank)); decide)]
  rfl
theorem rhs_qk_2 (i : S1x512x2048.Idx) (q : dot_S1x512x64_S1x2048x64_S1x512x2048_2_2_1_1_0_0.contr.Idx) :
    (dot_S1x512x64_S1x2048x64_S1x512x2048_2_2_1_1_0_0.rhsIdx i q 2).val = (q ⟨0, by show 0 < 1; decide⟩).val :=
  dot_S1x512x64_S1x2048x64_S1x512x2048_2_2_1_1_0_0.rhsIdx_val_of_single rfl i q
theorem lhs_pv_0 (i : S1x512x64.Idx) (q : dot_S1x512x2048_S1x2048x64_S1x512x64_2_1_1_2_0_0.contr.Idx) :
    (dot_S1x512x2048_S1x2048x64_S1x512x64_2_1_1_2_0_0.lhsIdx i q 0).val = (i 0).val := by
  unfold DotDims.lhsIdx
  rw [dif_pos (show (0 : Fin S1x512x2048.rank) ∈ dot_S1x512x2048_S1x2048x64_S1x512x64_2_1_1_2_0_0.lhsBatch by
    show (0 : Fin S1x512x2048.rank) ∈ ([0] : List (Fin S1x512x2048.rank)); decide)]
  rfl
theorem lhs_pv_1 (i : S1x512x64.Idx) (q : dot_S1x512x2048_S1x2048x64_S1x512x64_2_1_1_2_0_0.contr.Idx) :
    (dot_S1x512x2048_S1x2048x64_S1x512x64_2_1_1_2_0_0.lhsIdx i q 1).val = (i 1).val := by
  unfold DotDims.lhsIdx
  rw [dif_neg (show ¬(1 : Fin S1x512x2048.rank) ∈ dot_S1x512x2048_S1x2048x64_S1x512x64_2_1_1_2_0_0.lhsBatch by
    show ¬(1 : Fin S1x512x2048.rank) ∈ ([0] : List (Fin S1x512x2048.rank)); decide),
    dif_pos (show (1 : Fin S1x512x2048.rank) ∈ dot_S1x512x2048_S1x2048x64_S1x512x64_2_1_1_2_0_0.lhsNonContracting by
    show (1 : Fin S1x512x2048.rank) ∈ ([1] : List (Fin S1x512x2048.rank)); decide)]
  rfl
theorem lhs_pv_2 (i : S1x512x64.Idx) (q : dot_S1x512x2048_S1x2048x64_S1x512x64_2_1_1_2_0_0.contr.Idx) :
    (dot_S1x512x2048_S1x2048x64_S1x512x64_2_1_1_2_0_0.lhsIdx i q 2).val = (q ⟨0, by show 0 < 1; decide⟩).val :=
  dot_S1x512x2048_S1x2048x64_S1x512x64_2_1_1_2_0_0.lhsIdx_val_of_single rfl i q
theorem rhs_pv_0 (i : S1x512x64.Idx) (q : dot_S1x512x2048_S1x2048x64_S1x512x64_2_1_1_2_0_0.contr.Idx) :
    (dot_S1x512x2048_S1x2048x64_S1x512x64_2_1_1_2_0_0.rhsIdx i q 0).val = (i 0).val := by
  unfold DotDims.rhsIdx
  rw [dif_pos (show (0 : Fin S1x2048x64.rank) ∈ dot_S1x512x2048_S1x2048x64_S1x512x64_2_1_1_2_0_0.rhsBatch by
    show (0 : Fin S1x2048x64.rank) ∈ ([0] : List (Fin S1x2048x64.rank)); decide)]
  rfl
theorem rhs_pv_1 (i : S1x512x64.Idx) (q : dot_S1x512x2048_S1x2048x64_S1x512x64_2_1_1_2_0_0.contr.Idx) :
    (dot_S1x512x2048_S1x2048x64_S1x512x64_2_1_1_2_0_0.rhsIdx i q 1).val = (q ⟨0, by show 0 < 1; decide⟩).val :=
  dot_S1x512x2048_S1x2048x64_S1x512x64_2_1_1_2_0_0.rhsIdx_val_of_single rfl i q
theorem rhs_pv_2 (i : S1x512x64.Idx) (q : dot_S1x512x2048_S1x2048x64_S1x512x64_2_1_1_2_0_0.contr.Idx) :
    (dot_S1x512x2048_S1x2048x64_S1x512x64_2_1_1_2_0_0.rhsIdx i q 2).val = (i 2).val := by
  unfold DotDims.rhsIdx
  rw [dif_neg (show ¬(2 : Fin S1x2048x64.rank) ∈ dot_S1x512x2048_S1x2048x64_S1x512x64_2_1_1_2_0_0.rhsBatch by
    show ¬(2 : Fin S1x2048x64.rank) ∈ ([0] : List (Fin S1x2048x64.rank)); decide),
    dif_pos (show (2 : Fin S1x2048x64.rank) ∈ dot_S1x512x2048_S1x2048x64_S1x512x64_2_1_1_2_0_0.rhsNonContracting by
    show (2 : Fin S1x2048x64.rank) ∈ ([2] : List (Fin S1x2048x64.rank)); decide)]
  rfl

/-- Queries times keys: at `(0, i, j)` the sum over the feature coordinate. -/
theorem matmul_qk_apply (l : FVec Ideal S1x512x64 φ₁) (r : FVec Ideal S1x2048x64 φ₂) (i : Fin 512) (j : Fin 2048) :
    matmul dot_S1x512x64_S1x2048x64_S1x512x2048_2_2_1_1_0_0 none l r (constant S1x512x2048 .f32 0x00000000#32) (ix3 (0 : Fin 1) i j)
      = ∑ d : Fin 64, l (ix3 (0 : Fin 1) i d) * r (ix3 (0 : Fin 1) j d) := by
  simp only [matmul]
  rw [Ideal.matmul_constant_zero_apply, ← Equiv.sum_comp (contrEquiv1 dot_S1x512x64_S1x2048x64_S1x512x2048_2_2_1_1_0_0 64 rfl rfl).symm]
  refine Finset.sum_congr rfl fun k _ => ?_
  have hk := contrEquiv1_symm_val dot_S1x512x64_S1x2048x64_S1x512x2048_2_2_1_1_0_0 64 rfl rfl k
  have el : dot_S1x512x64_S1x2048x64_S1x512x2048_2_2_1_1_0_0.lhsIdx (ix3 (0 : Fin 1) i j) ((contrEquiv1 dot_S1x512x64_S1x2048x64_S1x512x2048_2_2_1_1_0_0 64 rfl rfl).symm k) = ix3 (0 : Fin 1) i k := funext fun a => Fin.ext (by
    match a with
    | ⟨0, _⟩ => exact lhs_qk_0 _ _
    | ⟨1, _⟩ => exact lhs_qk_1 _ _
    | ⟨2, _⟩ => exact (lhs_qk_2 _ _).trans hk)
  have er : dot_S1x512x64_S1x2048x64_S1x512x2048_2_2_1_1_0_0.rhsIdx (ix3 (0 : Fin 1) i j) ((contrEquiv1 dot_S1x512x64_S1x2048x64_S1x512x2048_2_2_1_1_0_0 64 rfl rfl).symm k) = ix3 (0 : Fin 1) j k := funext fun a => Fin.ext (by
    match a with
    | ⟨0, _⟩ => exact rhs_qk_0 _ _
    | ⟨1, _⟩ => exact rhs_qk_1 _ _
    | ⟨2, _⟩ => exact (rhs_qk_2 _ _).trans hk)
  rw [el, er]

/-- Weights times values: at `(0, i, d)` the sum over the key coordinate. -/
theorem matmul_pv_apply (l : FVec Ideal S1x512x2048 φ₁) (r : FVec Ideal S1x2048x64 φ₂) (i : Fin 512) (d : Fin 64) :
    matmul dot_S1x512x2048_S1x2048x64_S1x512x64_2_1_1_2_0_0 none l r (constant S1x512x64 .f32 0x00000000#32) (ix3 (0 : Fin 1) i d)
      = ∑ j : Fin 2048, l (ix3 (0 : Fin 1) i j) * r (ix3 (0 : Fin 1) j d) := by
  simp only [matmul]
  rw [Ideal.matmul_constant_zero_apply, ← Equiv.sum_comp (contrEquiv1 dot_S1x512x2048_S1x2048x64_S1x512x64_2_1_1_2_0_0 2048 rfl rfl).symm]
  refine Finset.sum_congr rfl fun k _ => ?_
  have hk := contrEquiv1_symm_val dot_S1x512x2048_S1x2048x64_S1x512x64_2_1_1_2_0_0 2048 rfl rfl k
  have el : dot_S1x512x2048_S1x2048x64_S1x512x64_2_1_1_2_0_0.lhsIdx (ix3 (0 : Fin 1) i d) ((contrEquiv1 dot_S1x512x2048_S1x2048x64_S1x512x64_2_1_1_2_0_0 2048 rfl rfl).symm k) = ix3 (0 : Fin 1) i k := funext fun a => Fin.ext (by
    match a with
    | ⟨0, _⟩ => exact lhs_pv_0 _ _
    | ⟨1, _⟩ => exact lhs_pv_1 _ _
    | ⟨2, _⟩ => exact (lhs_pv_2 _ _).trans hk)
  have er : dot_S1x512x2048_S1x2048x64_S1x512x64_2_1_1_2_0_0.rhsIdx (ix3 (0 : Fin 1) i d) ((contrEquiv1 dot_S1x512x2048_S1x2048x64_S1x512x64_2_1_1_2_0_0 2048 rfl rfl).symm k) = ix3 (0 : Fin 1) k d := funext fun a => Fin.ext (by
    match a with
    | ⟨0, _⟩ => exact rhs_pv_0 _ _
    | ⟨1, _⟩ => exact (rhs_pv_1 _ _).trans hk
    | ⟨2, _⟩ => exact rhs_pv_2 _ _)
  rw [el, er]

end Cert.KernelIdeal.Ops

end
-- ==== Proof.Body.lean ====
/-
  What the two kernel bodies compute at one element of their output blocks.

  The attention body scales the query block by 1/8, contracts it with the key block over the 64 features, fills the
  entries whose mask word is not zero with the named constant, which denotes -inf, takes each row's maximum from
  -inf, exponentiates the shifted scores, sums them along the row, contracts the weights with the value block and
  divides by the row's sum. At element (0, i, d) this is the row function of the specification applied to row i's
  scores and column d of the values. The scale 1/8 is nonnegative and finite, so it leaves the dot product:
  the scores are the specification's scores of the rows the blocks hold.
  The cross body contracts its two blocks over the features: at (0, i, j) the dot product of row i of the first
  with row j of the second.
-/
import proofs.«144766_j2869038154032_2_alg».proof.Proof.Gen.KernelIdeal.Skeleton
import proofs.«144766_j2869038154032_2_alg».proof.Proof.KernelOps
import proofs.«144766_j2869038154032_2_alg».proof.Proof.Spec
import proofs.«144766_j2869038154032_2_alg».proof.Proof.Consts
import Idealize.ShloMosaic.PureOps.IdealRules
import Idealize.ShloMosaic.Lib.ValueIdx

noncomputable section

namespace Cert.KernelIdeal.Body

open Cert.KernelIdeal Cert.KernelIdeal.Gen Cert.KernelIdeal.Ops Idealize.ShloMosaic Idealize.ShloMosaic.ValueIdx
  Cert.Attn Cert.Lib.SoftmaxRow

/-- The named fill constant denotes -inf. -/
theorem neg_big : Named.named (F := Ideal) κ "neg_big" (φ := .f32) 0xFF333332#32 = (⊥ : EReal) :=
  IdealRules.named_const.ideal_named_scalar _ _ _ _ rfl

/-- A one-bit word widened to 32 bits differs from zero exactly when the bit is set. -/
theorem ne_zero_widen (w : BitVec 1) : IntOp.cmpi .ne (w.setWidth 32) 0#32 = w := by
  revert w; decide

section Attention

variable (x0 : Vec Ideal S1x512x64 .f32) (x1 x2 : Vec Ideal S1x2048x64 .f32) (x3 : Vec Ideal S1x512x2048 .i32)

/-- The body's masked scores as a vector. -/
def sVec : FVec Ideal S1x512x2048 .f32 :=
  select (cmpi .ne x3 (constantI S1x512x2048 32 0#32)) (broadcast S1x512x2048 (Named.named (F := Ideal) κ "neg_big" (φ := .f32) 0xFF333332#32))
    (matmul dot_S1x512x64_S1x2048x64_S1x512x2048_2_2_1_1_0_0 none
      (truncf .bf16 (mulf x0 (broadcast S1x512x64 (Scalar.ofBits (F := Ideal) .f32 0x3E000000#32))) bitsLt_bf16_f32)
      (truncf .bf16 x1 bitsLt_bf16_f32) (constant S1x512x2048 .f32 0x00000000#32))

/-- The body's weights as a vector. -/
def eVec : FVec Ideal S1x512x2048 .f32 :=
  exp (subf (sVec x0 x1 x3) (broadcastTo S1x512x2048
    (shapeCast S1x512x1 (multiReduction .maximumf [2] S1x512 (sVec x0 x1 x3) 0xFF800000#32 reduces_S1x512x2048_S1x512 (.inl rfl) rfl)
      shapeCasts_S1x512_S1x512x1) broadcasts_S1x512x1_S1x512x2048))

/-- The payload is the weights contracted with the values, over the broadcast row sums. -/
theorem pay_eq : k0_pay1 (F := Ideal) x0 x1 x3 x2
    = divf (matmul dot_S1x512x2048_S1x2048x64_S1x512x64_2_1_1_2_0_0 none (truncf .bf16 (eVec x0 x1 x3) bitsLt_bf16_f32)
        (truncf .bf16 x2 bitsLt_bf16_f32) (constant S1x512x64 .f32 0x00000000#32))
      (broadcastTo S1x512x64 (shapeCast S1x512x1
        (multiReduction .add [2] S1x512 (eVec x0 x1 x3) 0x00000000#32 reduces_S1x512x2048_S1x512 (.inl rfl) rfl)
        shapeCasts_S1x512_S1x512x1) broadcasts_S1x512x1_S1x512x64) := rfl

/-- The body's score of row i against key j: -inf where the mask word is not zero, else the scaled dot product. -/
def kscore (i : Fin 512) (j : Fin 2048) : EReal :=
  Scalar.select (IntOp.cmpi .ne (x3 (ix3 (0 : Fin 1) i j)) 0#32) (⊥ : EReal)
    (∑ d : Fin 64, (x0 (ix3 (0 : Fin 1) i d) * Ideal.ofBits .f32 0x3E000000#32) * x1 (ix3 (0 : Fin 1) j d))

theorem sVec_apply (i : Fin 512) (j : Fin 2048) : sVec x0 x1 x3 (ix3 (0 : Fin 1) i j) = kscore x0 x1 x3 i j := by
  unfold sVec
  rw [select_apply, broadcast_apply, matmul_qk_apply, neg_big]
  rfl

theorem eVec_apply (i : Fin 512) (j : Fin 2048) :
    eVec x0 x1 x3 (ix3 (0 : Fin 1) i j) = weight (kscore x0 x1 x3 i) j := by
  unfold eVec
  show Ideal.exp (sVec x0 x1 x3 (ix3 (0 : Fin 1) i j) - broadcastTo S1x512x2048 _ broadcasts_S1x512x1_S1x512x2048 (ix3 (0 : Fin 1) i j)) = _
  rw [bcast_keys_apply, keepdims_apply, rowmax_apply]
  simp only [sVec_apply]
  rfl

/-- The attention payload at (0, i, d): the row function on row i's scores and column d of the value block. -/
theorem pay_apply (i : Fin 512) (d : Fin 64) :
    k0_pay1 (F := Ideal) x0 x1 x3 x2 (ix3 (0 : Fin 1) i d)
      = attnRow (kscore x0 x1 x3 i) fun j => x2 (ix3 (0 : Fin 1) j d) := by
  rw [pay_eq, divf_apply, matmul_pv_apply, bcast_feat_apply, keepdims_apply, rowsum_apply]
  simp only [truncf_apply, eVec_apply]
  rfl

variable (q k v : QShape.Idx → EReal) (msk : SShape.Idx → BitVec 1) (b : Fin 16) (r : Fin 2048) (i : Fin 512)

/-- When the blocks hold row r of batch b of the queries and the mask and all of batch b of the keys, the body's
    scores of row i are the specification's scores of row (b, r). -/
theorem kscore_eq (h0 : ∀ d : Fin 64, x0 (ix3 (0 : Fin 1) i d) = q (ix3 b r d))
    (h1 : ∀ (j : Fin 2048) (d : Fin 64), x1 (ix3 (0 : Fin 1) j d) = k (ix3 b j d))
    (h3 : ∀ j : Fin 2048, x3 (ix3 (0 : Fin 1) i j) = (msk (ix3 b r j)).setWidth 32) (j : Fin 2048) :
    kscore x0 x1 x3 i j = score q k msk b r j := by
  have e := scaled_dot (n := 64) (fun d => q (ix3 b r d)) (fun d => k (ix3 b j d)) Consts.eighth_nonneg Consts.eighth_ne_top
  unfold kscore score qk
  rw [h3 j, ne_zero_widen]
  simp only [h0, h1, Consts.ofBits_eighth]
  rw [e]
  rfl

/-- The attention payload at (0, i, d) is the specification's context at (b, r, d). -/
theorem pay_eq_context (h0 : ∀ d : Fin 64, x0 (ix3 (0 : Fin 1) i d) = q (ix3 b r d))
    (h1 : ∀ (j : Fin 2048) (d : Fin 64), x1 (ix3 (0 : Fin 1) j d) = k (ix3 b j d))
    (h2 : ∀ (j : Fin 2048) (d : Fin 64), x2 (ix3 (0 : Fin 1) j d) = v (ix3 b j d))
    (h3 : ∀ j : Fin 2048, x3 (ix3 (0 : Fin 1) i j) = (msk (ix3 b r j)).setWidth 32) (d : Fin 64) :
    k0_pay1 (F := Ideal) x0 x1 x3 x2 (ix3 (0 : Fin 1) i d) = contextAt q k v msk b r d := by
  rw [pay_apply]
  unfold contextAt
  rw [show kscore x0 x1 x3 i = score q k msk b r from funext fun j => kscore_eq x0 x1 x3 q k msk b r i h0 h1 h3 j]
  simp only [h2]

end Attention

section Cross

variable (x0 : Vec Ideal S1x512x64 .f32) (x1 : Vec Ideal S1x2048x64 .f32)

/-- The cross payload at (0, i, j) is the specification's cross score at (b, r, j), when the blocks hold row r of
    batch b of the first operand and all of batch b of the second. -/
theorem pay_eq_cross (c1 c2 : QShape.Idx → EReal) (b : Fin 16) (r : Fin 2048) (i : Fin 512)
    (h0 : ∀ d : Fin 64, x0 (ix3 (0 : Fin 1) i d) = c1 (ix3 b r d))
    (h1 : ∀ (j : Fin 2048) (d : Fin 64), x1 (ix3 (0 : Fin 1) j d) = c2 (ix3 b j d)) (j : Fin 2048) :
    k1_pay1 (F := Ideal) x0 x1 (ix3 (0 : Fin 1) i j) = crossAt c1 c2 b r j := by
  show matmul dot_S1x512x64_S1x2048x64_S1x512x2048_2_2_1_1_0_0 none (truncf (F := Ideal) (φ := .f32) .bf16 x0 bitsLt_bf16_f32)
    (truncf (F := Ideal) (φ := .f32) .bf16 x1 bitsLt_bf16_f32) (constant S1x512x2048 .f32 0x00000000#32) (ix3 (0 : Fin 1) i j) = _
  rw [matmul_qk_apply]
  simp only [truncf_apply, h0, h1]
  rfl

end Cross

end Cert.KernelIdeal.Body

end
-- ==== Proof.Final.lean ====
/-
  The idealized kernel's two result arrays are the specification.

  Before the attention region the host widens the boolean mask to 32-bit words, and the region finds the queries,
  keys and values as launched. What a grid point writes back is the body's output block, whose element (0, i, d) is
  the specification's context at (b, 512 t + i, d): that is the point's block of the context array. The blocks
  cover the array, so the array ends holding the context. The cross-score region finds its two operands as launched
  (the attention region does not write them) and its blocks cover the cross score array in the same way.
-/
import proofs.«144766_j2869038154032_2_alg».proof.Proof.KernelRun
import proofs.«144766_j2869038154032_2_alg».proof.Proof.Blocks
import proofs.«144766_j2869038154032_2_alg».proof.Proof.Body
import Idealize.ShloMosaic.Lib.StableHlo.Run
import Idealize.ShloMosaic.Lib.Pipeline.Value

set_option maxRecDepth 16384

noncomputable section

namespace Cert.KernelIdeal.Final

open Cert.KernelIdeal Cert.KernelIdeal.Gen Cert.KernelIdeal.Blocks Idealize.ShloMosaic Idealize.ShloMosaic.TcCoe
  Idealize.ShloMosaic.ValueIdx Idealize.ShloMosaic.StableHlo Cert.Attn
open Idealize.SL Idealize.SL.Sem
open Idealize.ShloMosaic.Pipeline (Dat Cfg Window)

variable (m : (ℓ : Loc nD τ sig) → Buf (Elt Ideal) ℓ) (ρ : Dev nD → PrngReg)

/-- The context the specification assigns to core c's launch arrays. -/
abbrev ctxG (c : Dev nD) : S16x2048x64.Idx → EReal :=
  context (m ((c : Thread nD τ).loc main_arg0)) (m ((c : Thread nD τ).loc main_arg1)) (m ((c : Thread nD τ).loc main_arg2))
    (m ((c : Thread nD τ).loc main_arg5))

/-- The cross score the specification assigns to core c's launch arrays. -/
abbrev crossG (c : Dev nD) : S16x2048x2048.Idx → EReal :=
  cross (m ((c : Thread nD τ).loc main_arg3)) (m ((c : Thread nD τ).loc main_arg4))

/-! ## What the regions find -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
/-- The attention region finds the mask widened to 32-bit words. -/
theorem V1_mask (c : Dev nD) :
    (V1 m ρ c main_v0 : S16x2048x2048.Idx → BitVec 32) = extui 32 (m ((c : Thread nD τ).loc main_arg5)) natLt_1_32 := by
  show StableHlo.after hostOps0 (W0 m ρ c) (Proc.devRef .tc main_v0) = _
  after_results
theorem V2_arg3 (c : Dev nD) : V2 m ρ c main_arg3 = m ((c : Thread nD τ).loc main_arg3) := by
  show W2 m ρ c (Proc.devRef .tc main_arg3) = _
  rw [W2_of_ne m ρ c main_arg3 (by decide)]
  show StableHlo.after hostOps0 (W0 m ρ c) (Proc.devRef .tc main_arg3) = _
  after_results
theorem V2_arg4 (c : Dev nD) : V2 m ρ c main_arg4 = m ((c : Thread nD τ).loc main_arg4) := by
  show W2 m ρ c (Proc.devRef .tc main_arg4) = _
  rw [W2_of_ne m ρ c main_arg4 (by decide)]
  show StableHlo.after hostOps0 (W0 m ρ c) (Proc.devRef .tc main_arg4) = _
  after_results

/-! ## The context array -/

/-- What point t writes back is its block of the context. -/
theorem flushed0 (c : Dev nD) (t : Fin cfg0.N) :
    (dat0 (V1 m ρ) c).flushed 4 t = ((cfg0.win 4).blk t).view.read (Elt Ideal) (ctxG m c) := by
  show (cfg0.win 4).cut (grid0.coords t) ((dat0 (V1 m ρ) c).after 4 t) = _
  rw [after0_4]
  unfold out0_4
  rw [View.canon_unit_zero hz3]
  simp only [View.ld_unit_zero (S := S1x512x64) hz3, View.ld_unit_zero (S := S1x2048x64) hz3,
    View.ld_unit_zero (S := S1x512x2048) hz3]
  funext y
  obtain ⟨u, i, d, rfl⟩ : ∃ (u : Fin 1) (i : Fin 512) (d : Fin 64), y = ix3 u i d := ⟨y 0, y 1, y 2, eq_ix3 y⟩
  obtain rfl : u = 0 := Subsingleton.elim _ _
  have hf := idx_facts0 t
  have hb : win0_4.index t (0 : Fin 3) < 16 := by omega
  have hr : win0_4.index t (1 : Fin 3) * 512 + i.val < 2048 := by have := i.isLt; omega
  show k0_pay1 (F := Ideal) (iblk0 (V1 m ρ) c 0 t) (iblk0 (V1 m ρ) c 1 t) (iblk0 (V1 m ρ) c 3 t) (iblk0 (V1 m ρ) c 2 t)
      (ix3 (0 : Fin 1) i d) = ctxG m c (((cfg0.win 4).blk t).view.emb (ix3 (0 : Fin 1) i d))
  rw [emb0 t i d (ix3 ⟨win0_4.index t (0 : Fin 3), hb⟩ ⟨win0_4.index t (1 : Fin 3) * 512 + i.val, hr⟩ d) rfl rfl rfl]
  refine Body.pay_eq_context (iblk0 (V1 m ρ) c 0 t) (iblk0 (V1 m ρ) c 1 t) (iblk0 (V1 m ρ) c 2 t) (iblk0 (V1 m ρ) c 3 t)
    (m ((c : Thread nD τ).loc main_arg0)) (m ((c : Thread nD τ).loc main_arg1)) (m ((c : Thread nD τ).loc main_arg2))
    (m ((c : Thread nD τ).loc main_arg5)) ⟨win0_4.index t (0 : Fin 3), hb⟩ ⟨win0_4.index t (1 : Fin 3) * 512 + i.val, hr⟩ i
    (fun d' => ?_) (fun j d' => ?_) (fun j d' => ?_) (fun j => ?_) d
  · exact (read0_q (V1 m ρ) c t i d' _ rfl rfl rfl).trans (congrFun (V1_arg0 m ρ c) _)
  · exact (read0_k (V1 m ρ) c t j d' _ rfl rfl rfl).trans (congrFun (V1_arg1 m ρ c) _)
  · exact (read0_v (V1 m ρ) c t j d' _ rfl rfl rfl).trans (congrFun (V1_arg2 m ρ c) _)
  · exact (read0_m (V1 m ρ) c t i j _ rfl rfl rfl).trans (congrFun (V1_mask m ρ c) _)

/-- The context array after the run is the specification's context. -/
theorem final0 (c : Dev nD) : (dat0 (V1 m ρ) c).arrAt 4 cfg0.N = ctxG m c :=
  (dat0 (V1 m ρ) c).arrAt_eq_of_cover 4 (ctxG m c) (fun t _ => flushed0 m ρ c t) cover0

/-! ## The cross score array -/

/-- What point t writes back is its block of the cross score. -/
theorem flushed1 (c : Dev nD) (t : Fin cfg1.N) :
    (dat1 (V2 m ρ) c).flushed 2 t = ((cfg1.win 2).blk t).view.read (Elt Ideal) (crossG m c) := by
  show (cfg1.win 2).cut (grid1.coords t) ((dat1 (V2 m ρ) c).after 2 t) = _
  rw [after1_2]
  unfold out1_2
  rw [View.canon_unit_zero hz3]
  simp only [View.ld_unit_zero (S := S1x512x64) hz3, View.ld_unit_zero (S := S1x2048x64) hz3]
  funext y
  obtain ⟨u, i, j, rfl⟩ : ∃ (u : Fin 1) (i : Fin 512) (j : Fin 2048), y = ix3 u i j := ⟨y 0, y 1, y 2, eq_ix3 y⟩
  obtain rfl : u = 0 := Subsingleton.elim _ _
  have hf := idx_facts1 t
  have hb : win1_2.index t (0 : Fin 3) < 16 := by omega
  have hr : win1_2.index t (1 : Fin 3) * 512 + i.val < 2048 := by have := i.isLt; omega
  show k1_pay1 (F := Ideal) (iblk1 (V2 m ρ) c 0 t) (iblk1 (V2 m ρ) c 1 t) (ix3 (0 : Fin 1) i j)
      = crossG m c (((cfg1.win 2).blk t).view.emb (ix3 (0 : Fin 1) i j))
  rw [emb1 t i j (ix3 ⟨win1_2.index t (0 : Fin 3), hb⟩ ⟨win1_2.index t (1 : Fin 3) * 512 + i.val, hr⟩ j) rfl rfl rfl]
  refine Body.pay_eq_cross (iblk1 (V2 m ρ) c 0 t) (iblk1 (V2 m ρ) c 1 t)
    (m ((c : Thread nD τ).loc main_arg3)) (m ((c : Thread nD τ).loc main_arg4))
    ⟨win1_2.index t (0 : Fin 3), hb⟩ ⟨win1_2.index t (1 : Fin 3) * 512 + i.val, hr⟩ i (fun d' => ?_) (fun j' d' => ?_) j
  · exact (read1_a (V2 m ρ) c t i d' _ rfl rfl rfl).trans (congrFun (V2_arg3 m ρ c) _)
  · exact (read1_b (V2 m ρ) c t j' d' _ rfl rfl rfl).trans (congrFun (V2_arg4 m ρ c) _)

/-- The cross score array after the run is the specification's cross score. -/
theorem final1 (c : Dev nD) : (dat1 (V2 m ρ) c).arrAt 2 cfg1.N = crossG m c :=
  (dat1 (V2 m ρ) c).arrAt_eq_of_cover 2 (crossG m c) (fun t _ => flushed1 m ρ c t) cover1

/-! ## The run -/

/-- Every weakly fair execution of the idealized kernel terminates, faultless, with the context array at the
    specification's context, the cross score array at its cross score, and the arguments as launched. -/
theorem run : θ_run defs (onTc (τ := τ) (main (F := Ideal))) ⟨m, fun _ => 0, ρ⟩ (fun r => ∀ c : Dev nD,
      r.2.mem ((c.tc : Thread nD τ).loc main_v1) = ctxG m c
      ∧ r.2.mem ((c.tc : Thread nD τ).loc main_v2) = crossG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (final0 m ρ c), (h c).2.1.trans (final1 m ρ c), (h c).2.2⟩)
    (Results.run (F := Ideal) m ρ)

end Cert.KernelIdeal.Final

end
-- ==== Proof.lean ====
/-
  Single-pass masked attention and a cross score on a 16 x 4 grid, against their jnp reference, on the extended reals.

  Both programs compute, for queries q, keys k, values v of shape [16, 2048, 64] and a boolean mask of shape
  [16, 2048, 2048], the context  sum_j softmax_j (s(b, i, .)) v(b, j, d)  with scores
  s(b, i, j) = -inf where the mask is set and (sum_d q(b, i, d) k(b, j, d)) / 8 elsewhere, and the cross score
  sum_d c1(b, i, d) c2(b, j, d). They differ in three places. The kernel multiplies the queries by 1/8 before the
  dot product and the reference multiplies the dot product by 1 / sqrt 64 after it: sqrt 64 = 8 exactly, and 1/8 is a
  finite nonnegative factor, which leaves any sum of extended reals. The kernel fills masked scores with a large
  negative constant which is read as -inf, the value the reference fills with. The kernel divides the weighted sum of
  the values by the row's sum of weights once, and the reference divides every weight first: these agree when the
  row's sum is positive, which holds when the row has an unmasked key (its score is a real number because queries and
  keys are finite, so its weight is exp of a number that is not -inf) — on a row whose keys are all masked every
  weight is 0 and the two orders of 0 / 0 part ways, so the precondition asks for an unmasked key in every row, where
  the reference itself is defined. The tiling of the rows into blocks of 512 does not change any sum.
  The three frames and the sanctioned rewrite of the fill constant are cited from the generated modules and the
  rule's statement.
-/
import proofs.«144766_j2869038154032_2_alg».proof.Defs
import proofs.«144766_j2869038154032_2_alg».proof.Proof.Gen.Kernel
import proofs.«144766_j2869038154032_2_alg».proof.Proof.Gen.Kernel.Skeleton
import proofs.«144766_j2869038154032_2_alg».proof.Proof.Gen.Kernel.Launch
import proofs.«144766_j2869038154032_2_alg».proof.Proof.Gen.Kernel.Points
import proofs.«144766_j2869038154032_2_alg».proof.Proof.Gen.Kernel.Frame
import proofs.«144766_j2869038154032_2_alg».proof.Proof.Gen.KernelIdeal
import proofs.«144766_j2869038154032_2_alg».proof.Proof.Gen.KernelIdeal.Skeleton
import proofs.«144766_j2869038154032_2_alg».proof.Proof.Gen.KernelIdeal.Launch
import proofs.«144766_j2869038154032_2_alg».proof.Proof.Gen.KernelIdeal.Points
import proofs.«144766_j2869038154032_2_alg».proof.Proof.Gen.KernelIdeal.Frame
import proofs.«144766_j2869038154032_2_alg».proof.Proof.Gen.ReferenceIdeal
import proofs.«144766_j2869038154032_2_alg».proof.Proof.Gen.Pre_finite_inputs
import proofs.«144766_j2869038154032_2_alg».proof.Proof.Gen.ReferenceIdeal.Run
import proofs.«144766_j2869038154032_2_alg».proof.Proof.Gen.ReferenceIdeal.Read
import proofs.«144766_j2869038154032_2_alg».proof.Proof.PreFacts
import proofs.«144766_j2869038154032_2_alg».proof.Proof.RefValue
import proofs.«144766_j2869038154032_2_alg».proof.Proof.Final
import Idealize.ShloMosaic.Adequacy
import Idealize.ShloMosaic.Init

noncomputable section

namespace Cert.Proof

open Idealize.ShloMosaic Idealize.SL.Sem

/-- The printed kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The fill constant is named -inf, and that is what the printed constant denotes on the extended reals. -/
theorem preserves : Cert.preserves_Kernel_KernelIdeal :=
  IdealRules.named_const.statement Cert.KernelIdeal.κ "neg_big" .f32 0xFF333332#32 ⊥ rfl

/-- From memories agreeing on the arguments, under the precondition, both programs end with the specification's
    context and cross score. -/
theorem algebraic : Cert.algebraic_KernelIdeal_ReferenceIdeal := by
  intro m ρ m' ρ' hpre hagree
  refine ⟨fun c => Cert.KernelIdeal.Final.ctxG m c, fun c => Cert.KernelIdeal.Final.crossG m c,
    Cert.KernelIdeal.Final.run m ρ, ?_⟩
  refine (θ_run Cert.ReferenceIdeal.defs _ _).mono (fun r h c => ?_) (Cert.ReferenceIdeal.Value.run (F := Ideal) m' ρ')
  obtain ⟨hq, hk, hm⟩ := Cert.PreFacts.of_pre _ _ _ _ _ _ (hpre c)
  obtain ⟨a0, a1, a2, a3, a4, a5⟩ := hagree c
  refine ⟨(h c).1.trans ?_, (h c).2.1.trans ?_, (h c).2.2⟩
  · refine (Cert.ReferenceIdeal.Read.val_main_v17_eq _ _ _ _).trans ?_
    rw [a0, a1, a2, a5]
    exact Cert.ReferenceIdeal.RefValue.context_eq _ _ _ _ hq hk hm
  · refine (Cert.ReferenceIdeal.Read.val_main_v18_eq _ _).trans ?_
    rw [a3, a4]
    exact Cert.ReferenceIdeal.RefValue.cross_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
